-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x1 : Shape := ⟨2, ![1000000, 1]⟩
abbrev S1x3 : Shape := ⟨2, ![1, 3]⟩
abbrev S3 : Shape := ⟨1, ![3]⟩
abbrev S3x1 : Shape := ⟨2, ![3, 1]⟩
abbrev S1 : Shape := ⟨1, ![1]⟩
abbrev S16000000 : Shape := ⟨1, ![16000000]⟩
abbrev S_ : Shape := ⟨0, ![]⟩

class Facts : Prop where
  bcast_S_S1000000x1 : S_.BroadcastsInDim S1000000x1 (![] : Fin 0 → Fin S1000000x1.rank)
  reducesTo_S1000000x1_S_d0_1 : S1000000x1.ReducesTo [0, 1] S_
  h_S_ : 0 < S_.numel
  bcast_S_S1x3 : S_.BroadcastsInDim S1x3 (![] : Fin 0 → Fin S1x3.rank)
  reducesTo_S1x3_S_d0_1 : S1x3.ReducesTo [0, 1] S_
  bcast_S_S3 : S_.BroadcastsInDim S3 (![] : Fin 0 → Fin S3.rank)
  reducesTo_S3_S_d0 : S3.ReducesTo [0] S_
  bcast_S_S3x1 : S_.BroadcastsInDim S3x1 (![] : Fin 0 → Fin S3x1.rank)
  reducesTo_S3x1_S_d0_1 : S3x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S3x1 1) : IVec S_ 1 :=
  let main_c_5 : IVec S_ 1 := constantI S_ 1 1#1
  let main_v17 : IVec S_ 1 := (fun x v => Host.reduce IntOp.andi x v reducesTo_S3x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S1000000x1 .f32) (main_arg1 : FVec F S1x3 .f32) (main_arg2 : FVec F S3 .f32) (main_arg3 : FVec F S3x1 .f32) (main_arg4 : FVec F S1 .f32) (main_arg5 : IVec S16000000 32) (main_arg6 : IVec S16000000 32) : IVec S_ 1 :=
  let main_v0 : FVec F S1000000x1 .f32 := Host.absf main_arg0
  let main_cst : FVec F S_ .f32 := constant S_ .f32 0x7F800000#32
  let main_v1 : FVec F S1000000x1 .f32 := broadcastInDim S1000000x1 ![] bcast_S_S1000000x1 main_cst
  let main_v2 : IVec S1000000x1 1 := cmpf .olt main_v0 main_v1
  let main_c : IVec S_ 1 := constantI S_ 1 1#1
  let main_v3 : IVec S_ 1 := (fun x v => Host.reduce IntOp.andi x v reducesTo_S1000000x1_S_d0_1 h_S_) main_v2 main_c
  let main_v4 : FVec F S1x3 .f32 := Host.absf main_arg1
  let main_cst_0 : FVec F S_ .f32 := constant S_ .f32 0x7F800000#32
  let main_v5 : FVec F S1x3 .f32 := broadcastInDim S1x3 ![] bcast_S_S1x3 main_cst_0
  let main_v6 : IVec S1x3 1 := cmpf .olt main_v4 main_v5
  let main_c_1 : IVec S_ 1 := constantI S_ 1 1#1
  let main_v7 : IVec S_ 1 := (fun x v => Host.reduce IntOp.andi x v reducesTo_S1x3_S_d0_1 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S3x1 .f32 := Host.absf main_arg3
  let main_cst_4 : FVec F S_ .f32 := constant S_ .f32 0x7F800000#32
  let main_v15 : FVec F S3x1 .f32 := broadcastInDim S3x1 ![] bcast_S_S3x1 main_cst_4
  let main_v16 : IVec S3x1 1 := cmpf .olt main_v14 main_v15
  fn_part1 (F := F) main_arg4 main_v13 main_v16
-- ==== Kernel.lean ====
abbrev S1000000x1 : Shape := ⟨2, ![1000000, 1]⟩
abbrev S1x3 : Shape := ⟨2, ![1, 3]⟩
abbrev S3 : Shape := ⟨1, ![3]⟩
abbrev S3x1 : Shape := ⟨2, ![3, 1]⟩
abbrev S1 : Shape := ⟨1, ![1]⟩
abbrev S16000000 : Shape := ⟨1, ![16000000]⟩
abbrev S_ : Shape := ⟨0, ![]⟩
abbrev S1000000 : Shape := ⟨1, ![1000000]⟩
abbrev S16000000x1 : Shape := ⟨2, ![16000000, 1]⟩
abbrev S2000x1 : Shape := ⟨2, ![2000, 1]⟩
abbrev S1x1 : Shape := ⟨2, ![1, 1]⟩
abbrev S1000000x3 : Shape := ⟨2, ![1000000, 3]⟩
abbrev S2000x3 : Shape := ⟨2, ![2000, 3]⟩
abbrev S16000000x3 : Shape := ⟨2, ![16000000, 3]⟩

abbrev nBuf : Space → Nat
  | .hbm => 78
  | .vmem => 28
  | .smem => 0
  | _ => 0

abbrev bufTy : (tb : Table) → Fin (tcTables nBuf tb) → BufTy
  | .hbm, ⟨0, _⟩ => ⟨S1000000x1, .f32⟩
  | .hbm, ⟨1, _⟩ => ⟨S1x3, .f32⟩
  | .hbm, ⟨2, _⟩ => ⟨S3, .f32⟩
  | .hbm, ⟨3, _⟩ => ⟨S3x1, .f32⟩
  | .hbm, ⟨4, _⟩ => ⟨S1, .f32⟩
  | .hbm, ⟨5, _⟩ => ⟨S16000000, .i32⟩
  | .hbm, ⟨6, _⟩ => ⟨S16000000, .i32⟩
  | .hbm, ⟨7, _⟩ => ⟨S_, .f32⟩
  | .hbm, ⟨8, _⟩ => ⟨S16000000, .f32⟩
  | .hbm, ⟨9, _⟩ => ⟨S_, .f32⟩
  | .hbm, ⟨10, _⟩ => ⟨S1000000, .f32⟩
  | .hbm, ⟨11, _⟩ => ⟨S16000000x1, .i32⟩
  | .hbm, ⟨12, _⟩ => ⟨S1000000, .f32⟩
  | .hbm, ⟨13, _⟩ => ⟨S_, .f32⟩
  | .hbm, ⟨14, _⟩ => ⟨S1000000, .f32⟩
  | .hbm, ⟨15, _⟩ => ⟨S1000000, .f32⟩
  | .hbm, ⟨16, _⟩ => ⟨S1000000, .f32⟩
  | .hbm, ⟨17, _⟩ => ⟨S1000000x1, .f32⟩
  | .hbm, ⟨18, _⟩ => ⟨S1000000x1, .f32⟩
  | .hbm, ⟨19, _⟩ => ⟨S_, .i32⟩
  | .hbm, ⟨20, _⟩ => ⟨S16000000, .i32⟩
  | .hbm, ⟨21, _⟩ => ⟨S16000000, .i1⟩
  | .hbm, ⟨22, _⟩ => ⟨S_, .i32⟩
  | .hbm, ⟨23, _⟩ => ⟨S16000000, .i32⟩
  | .hbm, ⟨24, _⟩ => ⟨S16000000, .i32⟩
  | .hbm, ⟨25, _⟩ => ⟨S16000000, .i32⟩
  | .hbm, ⟨26, _⟩ => ⟨S16000000x1, .i32⟩
  | .hbm, ⟨27, _⟩ => ⟨S1, .i32⟩
  | .hbm, ⟨28, _⟩ => ⟨S_, .i32⟩
  | .hbm, ⟨29, _⟩ => ⟨S16000000x1, .i32⟩
  | .hbm, ⟨30, _⟩ => ⟨S16000000x1, .i1⟩
  | .hbm, ⟨31, _⟩ => ⟨S1x1, .i32⟩
  | .hbm, ⟨32, _⟩ => ⟨S16000000x1, .i32⟩
  | .hbm, ⟨33, _⟩ => ⟨S16000000x1, .i1⟩
  | .hbm, ⟨34, _⟩ => ⟨S16000000x1, .i1⟩
  | .hbm, ⟨35, _⟩ => ⟨S_, .i1⟩
  | .hbm, ⟨36, _⟩ => ⟨S16000000, .i1⟩
  | .hbm, ⟨37, _⟩ => ⟨S16000000x1, .f32⟩
  | .hbm, ⟨38, _⟩ => ⟨S16000000x1, .i1⟩
  | .hbm, ⟨39, _⟩ => ⟨S_, .f32⟩
  | .hbm, ⟨40, _⟩ => ⟨S16000000x1, .f32⟩
  | .hbm, ⟨41, _⟩ => ⟨S16000000x1, .f32⟩
  | .hbm, ⟨42, _⟩ => ⟨S_, .f32⟩
  | .hbm, ⟨43, _⟩ => ⟨S1000000x1, .f32⟩
  | .hbm, ⟨44, _⟩ => ⟨S16000000x1, .i32⟩
  | .hbm, ⟨45, _⟩ => ⟨S1000000x1, .f32⟩
  | .hbm, ⟨46, _⟩ => ⟨S1x3, .f32⟩
  | .hbm, ⟨47, _⟩ => ⟨S1000000x3, .f32⟩
  | .hbm, ⟨48, _⟩ => ⟨S1000000x3, .f32⟩
  | .hbm, ⟨49, _⟩ => ⟨S_, .i32⟩
  | .hbm, ⟨50, _⟩ => ⟨S16000000, .i32⟩
  | .hbm, ⟨51, _⟩ => ⟨S16000000, .i1⟩
  | .hbm, ⟨52, _⟩ => ⟨S_, .i32⟩
  | .hbm, ⟨53, _⟩ => ⟨S16000000, .i32⟩
  | .hbm, ⟨54, _⟩ => ⟨S16000000, .i32⟩
  | .hbm, ⟨55, _⟩ => ⟨S16000000, .i32⟩
  | .hbm, ⟨56, _⟩ => ⟨S16000000x1, .i32⟩
  | .hbm, ⟨57, _⟩ => ⟨S1, .i32⟩
  | .hbm, ⟨58, _⟩ => ⟨S_, .i32⟩
  | .hbm, ⟨59, _⟩ => ⟨S16000000x1, .i32⟩
  | .hbm, ⟨60, _⟩ => ⟨S16000000x1, .i1⟩
  | .hbm, ⟨61, _⟩ => ⟨S1x1, .i32⟩
  | .hbm, ⟨62, _⟩ => ⟨S16000000x1, .i32⟩
  | .hbm, ⟨63, _⟩ => ⟨S16000000x1, .i1⟩
  | .hbm, ⟨64, _⟩ => ⟨S16000000x1, .i1⟩
  | .hbm, ⟨65, _⟩ => ⟨S_, .i1⟩
  | .hbm, ⟨66, _⟩ => ⟨S16000000, .i1⟩
  | .hbm, ⟨67, _⟩ => ⟨S16000000x3, .f32⟩
  | .hbm, ⟨68, _⟩ => ⟨S16000000x3, .i1⟩
  | .hbm, ⟨69, _⟩ => ⟨S_, .f32⟩
  | .hbm, ⟨70, _⟩ => ⟨S16000000x3, .f32⟩
  | .hbm, ⟨71, _⟩ => ⟨S16000000x3, .f32⟩
  | .hbm, ⟨72, _⟩ => ⟨S_, .f32⟩
  | .hbm, ⟨73, _⟩ => ⟨S1000000x3, .f32⟩
  | .hbm, ⟨74, _⟩ => ⟨S16000000x1, .i32⟩
  | .hbm, ⟨75, _⟩ => ⟨S1000000x3, .f32⟩
  | .hbm, ⟨76, _⟩ => ⟨S1x1, .f32⟩
  | .hbm, ⟨77, _⟩ => ⟨S1000000x1, .f32⟩
  | .local _ .vmem, ⟨0, _⟩ => ⟨S2000x1, .f32⟩
  | .local _ .vmem, ⟨1, _⟩ => ⟨S2000x1, .f32⟩
  | .local _ .vmem, ⟨2, _⟩ => ⟨S2000x1, .f32⟩
  | .local _ .vmem, ⟨3, _⟩ => ⟨S2000x1, .f32⟩
  | .local _ .vmem, ⟨4, _⟩ => ⟨S2000x1, .f32⟩
  | .local _ .vmem, ⟨5, _⟩ => ⟨S2000x1, .f32⟩
  | .local _ .vmem, ⟨6, _⟩ => ⟨S2000x1, .f32⟩
  | .local _ .vmem, ⟨7, _⟩ => ⟨S2000x1, .f32⟩
  | .local _ .vmem, ⟨8, _⟩ => ⟨S2000x1, .f32⟩
  | .local _ .vmem, ⟨9, _⟩ => ⟨S2000x1, .f32⟩
  | .local _ .vmem, ⟨10, _⟩ => ⟨S1x3, .f32⟩
  | .local _ .vmem, ⟨11, _⟩ => ⟨S1x3, .f32⟩
  | .local _ .vmem, ⟨12, _⟩ => ⟨S2000x3, .f32⟩
  | .local _ .vmem, ⟨13, _⟩ => ⟨S2000x3, .f32⟩
  | .local _ .vmem, ⟨14, _⟩ => ⟨S2000x3, .f32⟩
  | .local _ .vmem, ⟨15, _⟩ => ⟨S2000x3, .f32⟩
  | .local _ .vmem, ⟨16, _⟩ => ⟨S2000x1, .f32⟩
  | .local _ .vmem, ⟨17, _⟩ => ⟨S2000x1, .f32⟩
  | .local _ .vmem, ⟨18, _⟩ => ⟨S2000x3, .f32⟩
  | .local _ .vmem, ⟨19, _⟩ => ⟨S2000x3, .f32⟩
  | .local _ .vmem, ⟨20, _⟩ => ⟨S2000x3, .f32⟩
  | .local _ .vmem, ⟨21, _⟩ => ⟨S2000x3, .f32⟩
  | .local _ .vmem, ⟨22, _⟩ => ⟨S2000x1, .f32⟩
  | .local _ .vmem, ⟨23, _⟩ => ⟨S2000x1, .f32⟩
  | .local _ .vmem, ⟨24, _⟩ => ⟨S3x1, .f32⟩
  | .local _ .vmem, ⟨25, _⟩ => ⟨S1x1, .f32⟩
  | .local _ .vmem, ⟨26, _⟩ => ⟨S2000x1, .f32⟩
  | .local _ .vmem, ⟨27, _⟩ => ⟨S2000x1, .f32⟩
  | _, _ => ⟨S1000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v9 : Ref sig .tc := ⟨.hbm, 41, rfl⟩
abbrev main_cst_2 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v16 : Ref sig .tc := ⟨.hbm, 71, rfl⟩
abbrev main_cst_3 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![500], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x3 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x3 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![500], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x3 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![500], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x3 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S3x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S16000000 : S_.BroadcastsInDim S16000000 (![] : Fin 0 → Fin S16000000.rank)
  bcast_S_S1000000 : S_.BroadcastsInDim S1000000 (![] : Fin 0 → Fin S1000000.rank)
  bcast_S16000000_S16000000x1_0 : S16000000.BroadcastsInDim S16000000x1 (![0] : Fin 1 → Fin S16000000x1.rank)
  bcast_S1000000_S1000000x1_0 : S1000000.BroadcastsInDim S1000000x1 (![0] : Fin 1 → Fin S1000000x1.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  bcast_S_S16000000x1 : S_.BroadcastsInDim S16000000x1 (![] : Fin 0 → Fin S16000000x1.rank)
  bcast_S1_S1x1_1 : S1.BroadcastsInDim S1x1 (![1] : Fin 1 → Fin S1x1.rank)
  bcast_S1x1_S16000000x1_0_1 : S1x1.BroadcastsInDim S16000000x1 (![0, 1] : Fin 2 → Fin S16000000x1.rank)
  reducesTo_S16000000x1_S16000000_d1 : S16000000x1.ReducesTo [1] S16000000
  h_S_ : 0 < S_.numel
  bcast_S_S1000000x1 : S_.BroadcastsInDim S1000000x1 (![] : Fin 0 → Fin S1000000x1.rank)
  shapeCasts_S3_S1x3 : S3.ShapeCasts S1x3
  bitsLt_bf16_f32 : FTy.bits .bf16 < FTy.bits .f32
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2000x3 : S1x3.Broadcasts S2000x3
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  broadcasts_S2000x1_S2000x3 : S2000x1.Broadcasts S2000x3
  bcast_S16000000_S16000000x3_0 : S16000000.BroadcastsInDim S16000000x3 (![0] : Fin 1 → Fin S16000000x3.rank)
  bcast_S_S16000000x3 : S_.BroadcastsInDim S16000000x3 (![] : Fin 0 → Fin S16000000x3.rank)
  bcast_S_S1000000x3 : S_.BroadcastsInDim S1000000x3 (![] : Fin 0 → Fin S1000000x3.rank)
  shapeCasts_S1_S1x1 : S1.ShapeCasts S1x1
  inb_S3x1_S3x1_0_0 : ∀ a, (![0, 0] : Fin 2 → Nat) a + S3x1.size a ≤ S3x1.size a
  h_S3x1 : 0 < S3x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  scatter_S1000000_S16000000x1_S16000000_n_0_0_1_wf : ScatterDims.WF S1000000 S16000000x1 S16000000 [] [0] [0] 1
  gather_S1000000x1_S16000000x1_S16000000x1_1_0_n_n_0_1_11_wf : GatherDims.WF S1000000x1 S16000000x1 S16000000x1 [1] [0] [] [0] [] 1 ![1, 1]
  scatter_S1000000x1_S16000000x1_S16000000x1_1_0_0_1_wf : ScatterDims.WF S1000000x1 S16000000x1 S16000000x1 [1] [0] [0] 1
  dot_S2000x1_S1x3_S2000x3_1_0_0_1_n_n_wf : DotDims.WF S2000x1 S1x3 S2000x3 [1] [0] [0] [1] [] []
  gather_S1000000x3_S16000000x1_S16000000x3_1_0_n_n_0_1_13_wf : GatherDims.WF S1000000x3 S16000000x1 S16000000x3 [1] [0] [] [0] [] 1 ![1, 3]
  scatter_S1000000x3_S16000000x1_S16000000x3_1_0_0_1_wf : ScatterDims.WF S1000000x3 S16000000x1 S16000000x3 [1] [0] [0] 1
  dot_S2000x3_S3x1_S2000x1_1_0_0_1_n_n_wf : DotDims.WF S2000x3 S3x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S1000000x1.size a
  hwx0_0 : ∀ i : grid0.Coords, EltTy.bits .f32 = 32 ∨ (Rect.block (s := S1000000x1) S2000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S1000000x1.size a
  hwx0_1 : ∀ i : grid0.Coords, EltTy.bits .f32 = 32 ∨ (Rect.block (s := S1000000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S1000000x1.size a
  hwx0_2 : ∀ i : grid0.Coords, EltTy.bits .f32 = 32 ∨ (Rect.block (s := S1000000x1) S2000x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x1.size a ≤ S1000000x1.size a
  hwx1_0 : ∀ i : grid1.Coords, EltTy.bits .f32 = 32 ∨ (Rect.block (s := S1000000x1) S2000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S1000000x1.size a
  hwx1_1 : ∀ i : grid1.Coords, EltTy.bits .f32 = 32 ∨ (Rect.block (s := S1000000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x3.size a ≤ S1x3.size a
  hwx1_2 : ∀ i : grid1.Coords, EltTy.bits .f32 = 32 ∨ (Rect.block (s := S1x3) S1x3.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x3.size a ≤ S1x3.size a
  hwx1_3 : ∀ i : grid1.Coords, EltTy.bits .f32 = 32 ∨ (Rect.block (s := S1x3) S1x3.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x3.size a ≤ S1000000x3.size a
  hwx1_4 : ∀ i : grid1.Coords, EltTy.bits .f32 = 32 ∨ (Rect.block (s := S1000000x3) S2000x3.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x3.size a ≤ S1000000x3.size a
  hwx2_0 : ∀ i : grid2.Coords, EltTy.bits .f32 = 32 ∨ (Rect.block (s := S1000000x3) S2000x3.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S1000000x1.size a
  hwx2_1 : ∀ i : grid2.Coords, EltTy.bits .f32 = 32 ∨ (Rect.block (s := S1000000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x3.size a ≤ S1000000x3.size a
  hwx2_2 : ∀ i : grid2.Coords, EltTy.bits .f32 = 32 ∨ (Rect.block (s := S1000000x3) S2000x3.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x3.size a ≤ S1000000x3.size a
  hwx3_0 : ∀ i : grid3.Coords, EltTy.bits .f32 = 32 ∨ (Rect.block (s := S1000000x3) S2000x3.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S1000000x1.size a
  hwx3_1 : ∀ i : grid3.Coords, EltTy.bits .f32 = 32 ∨ (Rect.block (s := S1000000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S3x1.size a ≤ S3x1.size a
  hwx3_2 : ∀ i : grid3.Coords, EltTy.bits .f32 = 32 ∨ (Rect.block (s := S3x1) S3x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x1.size a ≤ S1000000x1.size a
  hwx3_4 : ∀ i : grid3.Coords, EltTy.bits .f32 = 32 ∨ (Rect.block (s := S1000000x1) S2000x1.size (cc3_transform_4 i) (hinb3_4 i)).WholeWords (EltTy.packing .f32)

variable [Facts₀]

def scatter_S1000000_S16000000x1_S16000000_n_0_0_1 : ScatterDims S1000000 S16000000x1 S16000000 where
  updateWindowDims := []
  insertedWindowDims := [0]
  scatterDimsToOperandDims := [0]
  indexVectorDim := 1
  wf := scatter_S1000000_S16000000x1_S16000000_n_0_0_1_wf
def gather_S1000000x1_S16000000x1_S16000000x1_1_0_n_n_0_1_11 : GatherDims S1000000x1 S16000000x1 S16000000x1 where
  offsetDims := [1]
  collapsedSliceDims := [0]
  operandBatchingDims := []
  startIndicesBatchingDims := []
  startIndexMap := [0]
  indexVectorDim := 1
  sliceSizes := ![1, 1]
  wf := gather_S1000000x1_S16000000x1_S16000000x1_1_0_n_n_0_1_11_wf
def scatter_S1000000x1_S16000000x1_S16000000x1_1_0_0_1 : ScatterDims S1000000x1 S16000000x1 S16000000x1 where
  updateWindowDims := [1]
  insertedWindowDims := [0]
  scatterDimsToOperandDims := [0]
  indexVectorDim := 1
  wf := scatter_S1000000x1_S16000000x1_S16000000x1_1_0_0_1_wf
def dot_S2000x1_S1x3_S2000x3_1_0_0_1_n_n : DotDims S2000x1 S1x3 S2000x3 where
  lhsContracting := [1]
  rhsContracting := [0]
  lhsNonContracting := [0]
  rhsNonContracting := [1]
  lhsBatch := []
  rhsBatch := []
  wf := dot_S2000x1_S1x3_S2000x3_1_0_0_1_n_n_wf
def gather_S1000000x3_S16000000x1_S16000000x3_1_0_n_n_0_1_13 : GatherDims S1000000x3 S16000000x1 S16000000x3 where
  offsetDims := [1]
  collapsedSliceDims := [0]
  operandBatchingDims := []
  startIndicesBatchingDims := []
  startIndexMap := [0]
  indexVectorDim := 1
  sliceSizes := ![1, 3]
  wf := gather_S1000000x3_S16000000x1_S16000000x3_1_0_n_n_0_1_13_wf
def scatter_S1000000x3_S16000000x1_S16000000x3_1_0_0_1 : ScatterDims S1000000x3 S16000000x1 S16000000x3 where
  updateWindowDims := [1]
  insertedWindowDims := [0]
  scatterDimsToOperandDims := [0]
  indexVectorDim := 1
  wf := scatter_S1000000x3_S16000000x1_S16000000x3_1_0_0_1_wf
def dot_S2000x3_S3x1_S2000x1_1_0_0_1_n_n : DotDims S2000x3 S3x1 S2000x1 where
  lhsContracting := [1]
  rhsContracting := [0]
  lhsNonContracting := [0]
  rhsNonContracting := [1]
  lhsBatch := []
  rhsBatch := []
  wf := dot_S2000x3_S3x1_S2000x1_1_0_0_1_n_n_wf

abbrev win0_0 : Pipeline.Window sig grid0 :=
  Pipeline.Window.ofSpec (Memref.whole main_arg0) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S2000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1x3.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x3.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S2000x3.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v14) S2000x3.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S2000x3.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v19) S2000x3.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg3) S3x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v20) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v21) S2000x1.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S1000000x1 : Shape := ⟨2, ![1000000, 1]⟩
abbrev S1x3 : Shape := ⟨2, ![1, 3]⟩
abbrev S3 : Shape := ⟨1, ![3]⟩
abbrev S3x1 : Shape := ⟨2, ![3, 1]⟩
abbrev S1 : Shape := ⟨1, ![1]⟩
abbrev S16000000 : Shape := ⟨1, ![16000000]⟩
abbrev S_ : Shape := ⟨0, ![]⟩
abbrev S1000000 : Shape := ⟨1, ![1000000]⟩
abbrev S16000000x1 : Shape := ⟨2, ![16000000, 1]⟩
abbrev S1x1 : Shape := ⟨2, ![1, 1]⟩
abbrev S1000000x3 : Shape := ⟨2, ![1000000, 3]⟩
abbrev S16000000x3 : Shape := ⟨2, ![16000000, 3]⟩

abbrev nBuf : Space → Nat
  | .hbm => 92
  | .vmem => 0
  | .smem => 0
  | _ => 0

abbrev bufTy : (tb : Table) → Fin (tcTables nBuf tb) → BufTy
  | .hbm, ⟨0, _⟩ => ⟨S1000000x1, .f32⟩
  | .hbm, ⟨1, _⟩ => ⟨S1x3, .f32⟩
  | .hbm, ⟨2, _⟩ => ⟨S3, .f32⟩
  | .hbm, ⟨3, _⟩ => ⟨S3x1, .f32⟩
  | .hbm, ⟨4, _⟩ => ⟨S1, .f32⟩
  | .hbm, ⟨5, _⟩ => ⟨S16000000, .i32⟩
  | .hbm, ⟨6, _⟩ => ⟨S16000000, .i32⟩
  | .hbm, ⟨7, _⟩ => ⟨S_, .f32⟩
  | .hbm, ⟨8, _⟩ => ⟨S16000000, .f32⟩
  | .hbm, ⟨9, _⟩ => ⟨S_, .f32⟩
  | .hbm, ⟨10, _⟩ => ⟨S1000000, .f32⟩
  | .hbm, ⟨11, _⟩ => ⟨S16000000x1, .i32⟩
  | .hbm, ⟨12, _⟩ => ⟨S1000000, .f32⟩
  | .hbm, ⟨13, _⟩ => ⟨S_, .f32⟩
  | .hbm, ⟨14, _⟩ => ⟨S1000000, .f32⟩
  | .hbm, ⟨15, _⟩ => ⟨S1000000, .f32⟩
  | .hbm, ⟨16, _⟩ => ⟨S1000000, .f32⟩
  | .hbm, ⟨17, _⟩ => ⟨S1000000x1, .f32⟩
  | .hbm, ⟨18, _⟩ => ⟨S1000000x1, .f32⟩
  | .hbm, ⟨19, _⟩ => ⟨S_, .i32⟩
  | .hbm, ⟨20, _⟩ => ⟨S16000000, .i32⟩
  | .hbm, ⟨21, _⟩ => ⟨S16000000, .i1⟩
  | .hbm, ⟨22, _⟩ => ⟨S_, .i32⟩
  | .hbm, ⟨23, _⟩ => ⟨S16000000, .i32⟩
  | .hbm, ⟨24, _⟩ => ⟨S16000000, .i32⟩
  | .hbm, ⟨25, _⟩ => ⟨S16000000, .i32⟩
  | .hbm, ⟨26, _⟩ => ⟨S16000000x1, .i32⟩
  | .hbm, ⟨27, _⟩ => ⟨S1, .i32⟩
  | .hbm, ⟨28, _⟩ => ⟨S_, .i32⟩
  | .hbm, ⟨29, _⟩ => ⟨S16000000x1, .i32⟩
  | .hbm, ⟨30, _⟩ => ⟨S16000000x1, .i1⟩
  | .hbm, ⟨31, _⟩ => ⟨S1x1, .i32⟩
  | .hbm, ⟨32, _⟩ => ⟨S16000000x1, .i32⟩
  | .hbm, ⟨33, _⟩ => ⟨S16000000x1, .i1⟩
  | .hbm, ⟨34, _⟩ => ⟨S16000000x1, .i1⟩
  | .hbm, ⟨35, _⟩ => ⟨S_, .i1⟩
  | .hbm, ⟨36, _⟩ => ⟨S16000000, .i1⟩
  | .hbm, ⟨37, _⟩ => ⟨S16000000x1, .f32⟩
  | .hbm, ⟨38, _⟩ => ⟨S16000000x1, .i1⟩
  | .hbm, ⟨39, _⟩ => ⟨S_, .f32⟩
  | .hbm, ⟨40, _⟩ => ⟨S16000000x1, .f32⟩
  | .hbm, ⟨41, _⟩ => ⟨S16000000x1, .f32⟩
  | .hbm, ⟨42, _⟩ => ⟨S_, .f32⟩
  | .hbm, ⟨43, _⟩ => ⟨S1000000x1, .f32⟩
  | .hbm, ⟨44, _⟩ => ⟨S16000000x1, .i32⟩
  | .hbm, ⟨45, _⟩ => ⟨S1000000x1, .f32⟩
  | .hbm, ⟨46, _⟩ => ⟨S1000000x1, .f32⟩
  | .hbm, ⟨47, _⟩ => ⟨S1000000x3, .f32⟩
  | .hbm, ⟨48, _⟩ => ⟨S1x3, .f32⟩
  | .hbm, ⟨49, _⟩ => ⟨S1000000x3, .f32⟩
  | .hbm, ⟨50, _⟩ => ⟨S1000000x3, .f32⟩
  | .hbm, ⟨51, _⟩ => ⟨S_, .f32⟩
  | .hbm, ⟨52, _⟩ => ⟨S1000000x3, .f32⟩
  | .hbm, ⟨53, _⟩ => ⟨S1000000x3, .f32⟩
  | .hbm, ⟨54, _⟩ => ⟨S1000000x3, .f32⟩
  | .hbm, ⟨55, _⟩ => ⟨S1000000x3, .f32⟩
  | .hbm, ⟨56, _⟩ => ⟨S_, .i32⟩
  | .hbm, ⟨57, _⟩ => ⟨S16000000, .i32⟩
  | .hbm, ⟨58, _⟩ => ⟨S16000000, .i1⟩
  | .hbm, ⟨59, _⟩ => ⟨S_, .i32⟩
  | .hbm, ⟨60, _⟩ => ⟨S16000000, .i32⟩
  | .hbm, ⟨61, _⟩ => ⟨S16000000, .i32⟩
  | .hbm, ⟨62, _⟩ => ⟨S16000000, .i32⟩
  | .hbm, ⟨63, _⟩ => ⟨S16000000x1, .i32⟩
  | .hbm, ⟨64, _⟩ => ⟨S1, .i32⟩
  | .hbm, ⟨65, _⟩ => ⟨S_, .i32⟩
  | .hbm, ⟨66, _⟩ => ⟨S16000000x1, .i32⟩
  | .hbm, ⟨67, _⟩ => ⟨S16000000x1, .i1⟩
  | .hbm, ⟨68, _⟩ => ⟨S1x1, .i32⟩
  | .hbm, ⟨69, _⟩ => ⟨S16000000x1, .i32⟩
  | .hbm, ⟨70, _⟩ => ⟨S16000000x1, .i1⟩
  | .hbm, ⟨71, _⟩ => ⟨S16000000x1, .i1⟩
  | .hbm, ⟨72, _⟩ => ⟨S_, .i1⟩
  | .hbm, ⟨73, _⟩ => ⟨S16000000, .i1⟩
  | .hbm, ⟨74, _⟩ => ⟨S16000000x3, .f32⟩
  | .hbm, ⟨75, _⟩ => ⟨S16000000x3, .i1⟩
  | .hbm, ⟨76, _⟩ => ⟨S_, .f32⟩
  | .hbm, ⟨77, _⟩ => ⟨S16000000x3, .f32⟩
  | .hbm, ⟨78, _⟩ => ⟨S16000000x3, .f32⟩
  | .hbm, ⟨79, _⟩ => ⟨S_, .f32⟩
  | .hbm, ⟨80, _⟩ => ⟨S1000000x3, .f32⟩
  | .hbm, ⟨81, _⟩ => ⟨S16000000x1, .i32⟩
  | .hbm, ⟨82, _⟩ => ⟨S1000000x3, .f32⟩
  | .hbm, ⟨83, _⟩ => ⟨S1000000x3, .f32⟩
  | .hbm, ⟨84, _⟩ => ⟨S1000000x3, .f32⟩
  | .hbm, ⟨85, _⟩ => ⟨S1000000x1, .f32⟩
  | .hbm, ⟨86, _⟩ => ⟨S1x1, .f32⟩
  | .hbm, ⟨87, _⟩ => ⟨S1000000x1, .f32⟩
  | .hbm, ⟨88, _⟩ => ⟨S1000000x1, .f32⟩
  | .hbm, ⟨89, _⟩ => ⟨S_, .f32⟩
  | .hbm, ⟨90, _⟩ => ⟨S1000000x1, .f32⟩
  | .hbm, ⟨91, _⟩ => ⟨S1000000x1, .f32⟩
  | _, _ => ⟨S1000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v9 : Ref sig .tc := ⟨.hbm, 41, rfl⟩
abbrev main_cst_2 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_call1_cst : Ref sig .tc := ⟨.hbm, 51, rfl⟩
abbrev main_call1_v0 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_call2_cst : Ref sig .tc := ⟨.hbm, 76, rfl⟩
abbrev main_call2_v15 : Ref sig .tc := ⟨.hbm, 77, rfl⟩
abbrev main_v21 : Ref sig .tc := ⟨.hbm, 78, rfl⟩
abbrev main_cst_3 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_call3_cst : Ref sig .tc := ⟨.hbm, 89, rfl⟩
abbrev main_call3_v0 : Ref sig .tc := ⟨.hbm, 90, rfl⟩
abbrev main_v31 : Ref sig .tc := ⟨.hbm, 91, rfl⟩

abbrev nD : Nat := 1
abbrev τ : Topo := Topo.v7x

variable {F : FTy → Type} [FloatOps F]

class Facts₀ : Prop where
  bcast_S_S16000000 : S_.BroadcastsInDim S16000000 (![] : Fin 0 → Fin S16000000.rank)
  bcast_S_S1000000 : S_.BroadcastsInDim S1000000 (![] : Fin 0 → Fin S1000000.rank)
  bcast_S16000000_S16000000x1_0 : S16000000.BroadcastsInDim S16000000x1 (![0] : Fin 1 → Fin S16000000x1.rank)
  bcast_S1000000_S1000000x1_0 : S1000000.BroadcastsInDim S1000000x1 (![0] : Fin 1 → Fin S1000000x1.rank)
  bcast_S_S16000000x1 : S_.BroadcastsInDim S16000000x1 (![] : Fin 0 → Fin S16000000x1.rank)
  bcast_S1_S1x1_1 : S1.BroadcastsInDim S1x1 (![1] : Fin 1 → Fin S1x1.rank)
  bcast_S1x1_S16000000x1_0_1 : S1x1.BroadcastsInDim S16000000x1 (![0, 1] : Fin 2 → Fin S16000000x1.rank)
  reducesTo_S16000000x1_S16000000_d1 : S16000000x1.ReducesTo [1] S16000000
  h_S_ : 0 < S_.numel
  bcast_S_S1000000x1 : S_.BroadcastsInDim S1000000x1 (![] : Fin 0 → Fin S1000000x1.rank)
  bcast_S3_S1x3_1 : S3.BroadcastsInDim S1x3 (![1] : Fin 1 → Fin S1x3.rank)
  bcast_S1x3_S1000000x3_0_1 : S1x3.BroadcastsInDim S1000000x3 (![0, 1] : Fin 2 → Fin S1000000x3.rank)
  bcast_S_S1000000x3 : S_.BroadcastsInDim S1000000x3 (![] : Fin 0 → Fin S1000000x3.rank)
  bcast_S1000000x1_S1000000x3_0_1 : S1000000x1.BroadcastsInDim S1000000x3 (![0, 1] : Fin 2 → Fin S1000000x3.rank)
  bcast_S16000000_S16000000x3_0 : S16000000.BroadcastsInDim S16000000x3 (![0] : Fin 1 → Fin S16000000x3.rank)
  bcast_S_S16000000x3 : S_.BroadcastsInDim S16000000x3 (![] : Fin 0 → Fin S16000000x3.rank)
  bcast_S1x1_S1000000x1_0_1 : S1x1.BroadcastsInDim S1000000x1 (![0, 1] : Fin 2 → Fin S1000000x1.rank)
  scatter_S1000000_S16000000x1_S16000000_n_0_0_1_wf : ScatterDims.WF S1000000 S16000000x1 S16000000 [] [0] [0] 1
  gather_S1000000x1_S16000000x1_S16000000x1_1_0_n_n_0_1_11_wf : GatherDims.WF S1000000x1 S16000000x1 S16000000x1 [1] [0] [] [0] [] 1 ![1, 1]
  scatter_S1000000x1_S16000000x1_S16000000x1_1_0_0_1_wf : ScatterDims.WF S1000000x1 S16000000x1 S16000000x1 [1] [0] [0] 1
  dot_S1000000x1_S1x3_S1000000x3_1_0_0_1_n_n_wf : DotDims.WF S1000000x1 S1x3 S1000000x3 [1] [0] [0] [1] [] []
  gather_S1000000x3_S16000000x1_S16000000x3_1_0_n_n_0_1_13_wf : GatherDims.WF S1000000x3 S16000000x1 S16000000x3 [1] [0] [] [0] [] 1 ![1, 3]
  scatter_S1000000x3_S16000000x1_S16000000x3_1_0_0_1_wf : ScatterDims.WF S1000000x3 S16000000x1 S16000000x3 [1] [0] [0] 1
  dot_S1000000x3_S3x1_S1000000x1_1_0_0_1_n_n_wf : DotDims.WF S1000000x3 S3x1 S1000000x1 [1] [0] [0] [1] [] []

variable [Facts₀]

def scatter_S1000000_S16000000x1_S16000000_n_0_0_1 : ScatterDims S1000000 S16000000x1 S16000000 where
  updateWindowDims := []
  insertedWindowDims := [0]
  scatterDimsToOperandDims := [0]
  indexVectorDim := 1
  wf := scatter_S1000000_S16000000x1_S16000000_n_0_0_1_wf
def gather_S1000000x1_S16000000x1_S16000000x1_1_0_n_n_0_1_11 : GatherDims S1000000x1 S16000000x1 S16000000x1 where
  offsetDims := [1]
  collapsedSliceDims := [0]
  operandBatchingDims := []
  startIndicesBatchingDims := []
  startIndexMap := [0]
  indexVectorDim := 1
  sliceSizes := ![1, 1]
  wf := gather_S1000000x1_S16000000x1_S16000000x1_1_0_n_n_0_1_11_wf
def scatter_S1000000x1_S16000000x1_S16000000x1_1_0_0_1 : ScatterDims S1000000x1 S16000000x1 S16000000x1 where
  updateWindowDims := [1]
  insertedWindowDims := [0]
  scatterDimsToOperandDims := [0]
  indexVectorDim := 1
  wf := scatter_S1000000x1_S16000000x1_S16000000x1_1_0_0_1_wf
def dot_S1000000x1_S1x3_S1000000x3_1_0_0_1_n_n : DotDims S1000000x1 S1x3 S1000000x3 where
  lhsContracting := [1]
  rhsContracting := [0]
  lhsNonContracting := [0]
  rhsNonContracting := [1]
  lhsBatch := []
  rhsBatch := []
  wf := dot_S1000000x1_S1x3_S1000000x3_1_0_0_1_n_n_wf
def gather_S1000000x3_S16000000x1_S16000000x3_1_0_n_n_0_1_13 : GatherDims S1000000x3 S16000000x1 S16000000x3 where
  offsetDims := [1]
  collapsedSliceDims := [0]
  operandBatchingDims := []
  startIndicesBatchingDims := []
  startIndexMap := [0]
  indexVectorDim := 1
  sliceSizes := ![1, 3]
  wf := gather_S1000000x3_S16000000x1_S16000000x3_1_0_n_n_0_1_13_wf
def scatter_S1000000x3_S16000000x1_S16000000x3_1_0_0_1 : ScatterDims S1000000x3 S16000000x1 S16000000x3 where
  updateWindowDims := [1]
  insertedWindowDims := [0]
  scatterDimsToOperandDims := [0]
  indexVectorDim := 1
  wf := scatter_S1000000x3_S16000000x1_S16000000x3_1_0_0_1_wf
def dot_S1000000x3_S3x1_S1000000x1_1_0_0_1_n_n : DotDims S1000000x3 S3x1 S1000000x1 where
  lhsContracting := [1]
  rhsContracting := [0]
  lhsNonContracting := [0]
  rhsNonContracting := [1]
  lhsBatch := []
  rhsBatch := []
  wf := dot_S1000000x3_S3x1_S1000000x1_1_0_0_1_n_n_wf

class Facts : Prop extends Facts₀ where

variable [Facts]
-- ==== Proof.KernelRun.lean ====
/-
  The kernel program's run with its result named. The program is nine segments — stretches of host operations and four
  pipelined passes — and the contents of every buffer at each boundary are a fold from the launch memory: a host stretch
  applies its operations, a pass leaves in its output array what its blocks wrote and every other buffer as it found it.
  After the last segment the result buffer holds the last boundary's contents at it, and the arguments are as launched.
-/
import proofs.«170145_j62380105008026_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last boundary's
    contents, the seven arguments as launched. -/
theorem run_result : θ_run defs (onTc (τ := τ) (main (F := F))) ⟨m, fun _ => 0, ρ⟩ (fun r => ∀ c : Dev nD,
      r.2.mem ((c.tc : Thread nD τ).loc main_v21) = W9 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v21 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Hand

end
-- ==== Proof.Spec.lean ====
/-
  The two-layer graph convolution, written once as a function of the seven argument arrays.

  With `N` = 1,000,000 nodes and `E` = 16,000,000 edges `(src e, dst e)`: the degree weight of node `r` is
  `n r = rsqrt (max (number of edges into r) 1)`; one layer sends a feature table `h` to
  `max ((Σ over edges e into r of (h · n) (src e)) · n r) W + b, 0)`, the row `(h · n) (src e)` read by the index rule of
  `take` (a negative index counted from the end, an index outside the table giving the not-a-number row); the result is the
  second layer of the first layer of the features. Each stage below is one step of that composition, over whole arrays.
-/
import proofs.«170145_j62380105008026_2_alg».proof.Proof.Gen.ReferenceIdeal
import Idealize.ShloMosaic.PureOps

noncomputable section

namespace Cert.Gcn

open Idealize.ShloMosaic Cert.ReferenceIdeal Cert.ReferenceIdeal.Facts₀

variable {F : FTy → Type} [FloatOps F]

/-- The degree weights as a column: `rsqrt (max deg 1)`, `deg` the number of edges into each node. -/
def degWeight (dst : (⟨S16000000, .i32⟩ : BufTy).Contents (Elt F)) : (⟨S1000000x1, .f32⟩ : BufTy).Contents (Elt F) :=
  broadcastInDim S1000000x1 ![0] bcast_S1000000_S1000000x1_0
    (Host.rsqrt
      (maximumf
        (Host.scatterAdd scatter_S1000000_S16000000x1_S16000000_n_0_0_1
          (broadcastInDim S1000000 ![] bcast_S_S1000000 (constant S_ .f32 0x00000000#32))
          (broadcastInDim S16000000x1 ![0] bcast_S16000000_S16000000x1_0 dst)
          (broadcastInDim S16000000 ![] bcast_S_S16000000 (constant S_ .f32 0x3F800000#32)))
        (broadcastInDim S1000000 ![] bcast_S_S1000000 (constant S_ .f32 0x3F800000#32))))

/-- The edge sources as gather starts: a negative index moved up by the table's length, as a column. -/
def takeStarts (src : (⟨S16000000, .i32⟩ : BufTy).Contents (Elt F)) : (⟨S16000000x1, .i32⟩ : BufTy).Contents (Elt F) :=
  broadcastInDim S16000000x1 ![0] bcast_S16000000_S16000000x1_0
    (select (cmpi .slt src (broadcastInDim S16000000 ![] bcast_S_S16000000 (constantI S_ 32 0#32)))
      (addi src (broadcastInDim S16000000 ![] bcast_S_S16000000 (constantI S_ 32 1000000#32)))
      src)

/-- Which starts lie inside the table: `0 ≤ start ≤ N - 1`, per edge. -/
def takeValid (st : (⟨S16000000x1, .i32⟩ : BufTy).Contents (Elt F)) : (⟨S16000000, .i1⟩ : BufTy).Contents (Elt F) :=
  Host.reduce IntOp.andi
    (andi (cmpi .sge st (broadcastInDim S16000000x1 ![] bcast_S_S16000000x1 (constantI S_ 32 0#32)))
      (cmpi .sle st (broadcastInDim S16000000x1 ![0, 1] bcast_S1x1_S16000000x1_0_1
        (broadcastInDim S1x1 ![1] bcast_S1_S1x1_1 (constantI S1 32 999999#32)))))
    (constantI S_ 1 1#1) reducesTo_S16000000x1_S16000000_d1 h_S_

/-- `take` of a one-column table at the edge sources. -/
def takeRows1 (x : (⟨S1000000x1, .f32⟩ : BufTy).Contents (Elt F)) (src : (⟨S16000000, .i32⟩ : BufTy).Contents (Elt F)) :
    (⟨S16000000x1, .f32⟩ : BufTy).Contents (Elt F) :=
  select (broadcastInDim S16000000x1 ![0] bcast_S16000000_S16000000x1_0 (takeValid (takeStarts src)))
    (Host.gather gather_S1000000x1_S16000000x1_S16000000x1_1_0_n_n_0_1_11 x (takeStarts src))
    (broadcastInDim S16000000x1 ![] bcast_S_S16000000x1 (constant S_ .f32 0x7FC00000#32))

/-- `take` of a three-column table at the edge sources. -/
def takeRows3 (x : (⟨S1000000x3, .f32⟩ : BufTy).Contents (Elt F)) (src : (⟨S16000000, .i32⟩ : BufTy).Contents (Elt F)) :
    (⟨S16000000x3, .f32⟩ : BufTy).Contents (Elt F) :=
  select (broadcastInDim S16000000x3 ![0] bcast_S16000000_S16000000x3_0 (takeValid (takeStarts src)))
    (Host.gather gather_S1000000x3_S16000000x1_S16000000x3_1_0_n_n_0_1_13 x (takeStarts src))
    (broadcastInDim S16000000x3 ![] bcast_S_S16000000x3 (constant S_ .f32 0x7FC00000#32))

/-- The per-edge rows summed into their destination nodes, one column. -/
def segSum1 (u : (⟨S16000000x1, .f32⟩ : BufTy).Contents (Elt F)) (dst : (⟨S16000000, .i32⟩ : BufTy).Contents (Elt F)) :
    (⟨S1000000x1, .f32⟩ : BufTy).Contents (Elt F) :=
  Host.scatterAdd scatter_S1000000x1_S16000000x1_S16000000x1_1_0_0_1
    (broadcastInDim S1000000x1 ![] bcast_S_S1000000x1 (constant S_ .f32 0x00000000#32))
    (broadcastInDim S16000000x1 ![0] bcast_S16000000_S16000000x1_0 dst) u

/-- The per-edge rows summed into their destination nodes, three columns. -/
def segSum3 (u : (⟨S16000000x3, .f32⟩ : BufTy).Contents (Elt F)) (dst : (⟨S16000000, .i32⟩ : BufTy).Contents (Elt F)) :
    (⟨S1000000x3, .f32⟩ : BufTy).Contents (Elt F) :=
  Host.scatterAdd scatter_S1000000x3_S16000000x1_S16000000x3_1_0_0_1
    (broadcastInDim S1000000x3 ![] bcast_S_S1000000x3 (constant S_ .f32 0x00000000#32))
    (broadcastInDim S16000000x1 ![0] bcast_S16000000_S16000000x1_0 dst) u

/-- The first layer's dense step over a bias row `b2 : [1,3]`: `max ((a · n) W + b2, 0)`, `[N,1] × [1,3] → [N,3]`. -/
def dense1 (a n : (⟨S1000000x1, .f32⟩ : BufTy).Contents (Elt F)) (W : (⟨S1x3, .f32⟩ : BufTy).Contents (Elt F))
    (b2 : (⟨S1x3, .f32⟩ : BufTy).Contents (Elt F)) : (⟨S1000000x3, .f32⟩ : BufTy).Contents (Elt F) :=
  maximumf
    (addf (Host.dotGeneral dot_S1000000x1_S1x3_S1000000x3_1_0_0_1_n_n none (mulf a n) W)
      (broadcastInDim S1000000x3 ![0, 1] bcast_S1x3_S1000000x3_0_1 b2))
    (broadcastInDim S1000000x3 ![] bcast_S_S1000000x3 (constant S_ .f32 0x00000000#32))

/-- The second layer's pre-normalisation: every column of `h` times the degree weight of its row. -/
def scale3 (h : (⟨S1000000x3, .f32⟩ : BufTy).Contents (Elt F)) (n : (⟨S1000000x1, .f32⟩ : BufTy).Contents (Elt F)) :
    (⟨S1000000x3, .f32⟩ : BufTy).Contents (Elt F) :=
  mulf h (broadcastInDim S1000000x3 ![0, 1] bcast_S1000000x1_S1000000x3_0_1 n)

/-- The second layer's dense step over a bias entry `b2 : [1,1]`: `max ((a · n) W + b2, 0)`, `[N,3] × [3,1] → [N,1]`. -/
def dense2 (a : (⟨S1000000x3, .f32⟩ : BufTy).Contents (Elt F)) (n : (⟨S1000000x1, .f32⟩ : BufTy).Contents (Elt F))
    (W : (⟨S3x1, .f32⟩ : BufTy).Contents (Elt F)) (b2 : (⟨S1x1, .f32⟩ : BufTy).Contents (Elt F)) :
    (⟨S1000000x1, .f32⟩ : BufTy).Contents (Elt F) :=
  maximumf
    (addf (Host.dotGeneral dot_S1000000x3_S3x1_S1000000x1_1_0_0_1_n_n none (scale3 a n) W)
      (broadcastInDim S1000000x1 ![0, 1] bcast_S1x1_S1000000x1_0_1 b2))
    (broadcastInDim S1000000x1 ![] bcast_S_S1000000x1 (constant S_ .f32 0x00000000#32))

/-- The whole network over a bias row and a bias entry already laid out as `[1,3]` and `[1,1]`. -/
def network (feat : (⟨S1000000x1, .f32⟩ : BufTy).Contents (Elt F)) (W1 : (⟨S1x3, .f32⟩ : BufTy).Contents (Elt F))
    (b1 : (⟨S1x3, .f32⟩ : BufTy).Contents (Elt F)) (W2 : (⟨S3x1, .f32⟩ : BufTy).Contents (Elt F))
    (b2 : (⟨S1x1, .f32⟩ : BufTy).Contents (Elt F)) (src dst : (⟨S16000000, .i32⟩ : BufTy).Contents (Elt F)) :
    (⟨S1000000x1, .f32⟩ : BufTy).Contents (Elt F) :=
  dense2
    (segSum3 (takeRows3 (scale3 (dense1 (segSum1 (takeRows1 (mulf feat (degWeight dst)) src) dst) (degWeight dst) W1 b1)
      (degWeight dst)) src) dst)
    (degWeight dst) W2 b2

/-- The bias vectors laid out as the reference lays them out: `[3] → [1,3]`, `[1] → [1,1]`, by a broadcast along a new
    leading axis. -/
def biasRow3 (b : (⟨S3, .f32⟩ : BufTy).Contents (Elt F)) : (⟨S1x3, .f32⟩ : BufTy).Contents (Elt F) :=
  broadcastInDim S1x3 ![1] bcast_S3_S1x3_1 b
def biasRow1 (b : (⟨S1, .f32⟩ : BufTy).Contents (Elt F)) : (⟨S1x1, .f32⟩ : BufTy).Contents (Elt F) :=
  broadcastInDim S1x1 ![1] bcast_S1_S1x1_1 b

end Cert.Gcn

end
-- ==== Proof.LibTypedRefs.lean ====
/-
  A typed reference moves a value between the tensor type it carries and its buffer's own type along the equation between
  the two. Moving a value to the buffer's type and back gives the value: the two transports compose to the identity.
-/
import Idealize.ShloMosaic.Lib.StableHlo

namespace Idealize.ShloMosaic.StableHlo.TRef

variable {sig : RefSig} {Val : EltTy → Type} {T : BufTy}

/-- Contents written through a typed reference read back through it unchanged. -/
theorem ofBuf_toBuf (x : TRef sig T) (v : T.Contents Val) : x.ofBuf (x.toBuf v) = v := by
  obtain ⟨r, rfl, h2, h3⟩ := x
  rfl

end Idealize.ShloMosaic.StableHlo.TRef
-- ==== Proof.KernelHost.lean ====
/-
  The kernel program's host stretches, each read as a function of the contents it starts from. Between the pipelined
  passes the program gathers the scaled table's rows at the edge sources (`take`), sums the gathered rows into their
  destination nodes, and lays a bias vector out as a one-row matrix; before the first pass it computes the degree weights.
  Each lemma says what one stretch leaves in one buffer: a stage of the network applied to the buffers the stretch reads,
  or — for a buffer the stretch does not write — what was there.
-/
import proofs.«170145_j62380105008026_2_alg».proof.Proof.Gen.KernelIdeal.Launch
import proofs.«170145_j62380105008026_2_alg».proof.Proof.Spec
import proofs.«170145_j62380105008026_2_alg».proof.Proof.LibTypedRefs
import Idealize.ShloMosaic.Lib.StableHlo.Run

noncomputable section

namespace Cert.KernelIdeal.Hand

open Cert.KernelIdeal Cert.KernelIdeal.Gen Idealize.ShloMosaic Idealize.ShloMosaic.StableHlo Idealize.ShloMosaic.TcCoe
open Idealize.SL.Sem

variable {F : FTy → Type} [FloatOps F]
variable (W : Valuation τ sig (Elt F))

/-! ## Before the first pass: the degree weights -/

attribute [local irreducible] Host.reduce Host.gather Host.scatterAdd Host.rsqrt in
theorem head_v7 : after hostOps0 W (Proc.devRef .tc main_v7) = Cert.Gcn.degWeight (W (Proc.devRef .tc main_arg6)) := by
  after_results_simp
  rfl

theorem head_arg0 : after hostOps0 W (Proc.devRef .tc main_arg0) = W (Proc.devRef .tc main_arg0) := by after_results_simp
theorem head_arg1 : after hostOps0 W (Proc.devRef .tc main_arg1) = W (Proc.devRef .tc main_arg1) := by after_results_simp
theorem head_arg2 : after hostOps0 W (Proc.devRef .tc main_arg2) = W (Proc.devRef .tc main_arg2) := by after_results_simp
theorem head_arg3 : after hostOps0 W (Proc.devRef .tc main_arg3) = W (Proc.devRef .tc main_arg3) := by after_results_simp
theorem head_arg4 : after hostOps0 W (Proc.devRef .tc main_arg4) = W (Proc.devRef .tc main_arg4) := by after_results_simp
theorem head_arg5 : after hostOps0 W (Proc.devRef .tc main_arg5) = W (Proc.devRef .tc main_arg5) := by after_results_simp
theorem head_arg6 : after hostOps0 W (Proc.devRef .tc main_arg6) = W (Proc.devRef .tc main_arg6) := by after_results_simp

/-! ## First layer: `take` of the scaled feature column at the edge sources -/

attribute [local irreducible] Host.reduce Host.gather Host.scatterAdd Host.rsqrt in
theorem take1_v9 : after hostOps1 W (Proc.devRef .tc main_v9)
    = Cert.Gcn.takeRows1 (W (Proc.devRef .tc main_v8)) (W (Proc.devRef .tc main_arg5)) := by
  after_results_simp
  simp only [TRef.ofBuf_toBuf]
  rfl

theorem take1_arg1 : after hostOps1 W (Proc.devRef .tc main_arg1) = W (Proc.devRef .tc main_arg1) := by after_results_simp
theorem take1_arg2 : after hostOps1 W (Proc.devRef .tc main_arg2) = W (Proc.devRef .tc main_arg2) := by after_results_simp
theorem take1_arg3 : after hostOps1 W (Proc.devRef .tc main_arg3) = W (Proc.devRef .tc main_arg3) := by after_results_simp
theorem take1_arg4 : after hostOps1 W (Proc.devRef .tc main_arg4) = W (Proc.devRef .tc main_arg4) := by after_results_simp
theorem take1_arg5 : after hostOps1 W (Proc.devRef .tc main_arg5) = W (Proc.devRef .tc main_arg5) := by after_results_simp
theorem take1_arg6 : after hostOps1 W (Proc.devRef .tc main_arg6) = W (Proc.devRef .tc main_arg6) := by after_results_simp
theorem take1_v7 : after hostOps1 W (Proc.devRef .tc main_v7) = W (Proc.devRef .tc main_v7) := by after_results_simp

/-! ## First layer: the sum into the destination nodes, and the bias as a row -/

attribute [local irreducible] Host.reduce Host.gather Host.scatterAdd Host.rsqrt in
theorem sum1_v12 : after hostOps1_1 W (Proc.devRef .tc main_v12)
    = Cert.Gcn.segSum1 (W (Proc.devRef .tc main_v9)) (W (Proc.devRef .tc main_arg6)) := by
  after_results_simp
  rfl

theorem sum1_v13 : after hostOps1_1 W (Proc.devRef .tc main_v13)
    = shapeCast S1x3 (W (Proc.devRef .tc main_arg2) : S3.Idx → Elt F .f32) shapeCasts_S3_S1x3 := by
  after_results_simp
  rfl

theorem sum1_arg1 : after hostOps1_1 W (Proc.devRef .tc main_arg1) = W (Proc.devRef .tc main_arg1) := by after_results_simp
theorem sum1_arg3 : after hostOps1_1 W (Proc.devRef .tc main_arg3) = W (Proc.devRef .tc main_arg3) := by after_results_simp
theorem sum1_arg4 : after hostOps1_1 W (Proc.devRef .tc main_arg4) = W (Proc.devRef .tc main_arg4) := by after_results_simp
theorem sum1_arg5 : after hostOps1_1 W (Proc.devRef .tc main_arg5) = W (Proc.devRef .tc main_arg5) := by after_results_simp
theorem sum1_arg6 : after hostOps1_1 W (Proc.devRef .tc main_arg6) = W (Proc.devRef .tc main_arg6) := by after_results_simp
theorem sum1_v7 : after hostOps1_1 W (Proc.devRef .tc main_v7) = W (Proc.devRef .tc main_v7) := by after_results_simp

/-! ## Second layer: `take` of the scaled hidden table at the edge sources -/

attribute [local irreducible] Host.reduce Host.gather Host.scatterAdd Host.rsqrt in
theorem take3_v16 : after hostOps3 W (Proc.devRef .tc main_v16)
    = Cert.Gcn.takeRows3 (W (Proc.devRef .tc main_v15)) (W (Proc.devRef .tc main_arg5)) := by
  after_results_simp
  simp only [TRef.ofBuf_toBuf]
  rfl

theorem take3_arg3 : after hostOps3 W (Proc.devRef .tc main_arg3) = W (Proc.devRef .tc main_arg3) := by after_results_simp
theorem take3_arg4 : after hostOps3 W (Proc.devRef .tc main_arg4) = W (Proc.devRef .tc main_arg4) := by after_results_simp
theorem take3_arg6 : after hostOps3 W (Proc.devRef .tc main_arg6) = W (Proc.devRef .tc main_arg6) := by after_results_simp
theorem take3_v7 : after hostOps3 W (Proc.devRef .tc main_v7) = W (Proc.devRef .tc main_v7) := by after_results_simp

/-! ## Second layer: the sum into the destination nodes, and the bias as a one-entry matrix -/

attribute [local irreducible] Host.reduce Host.gather Host.scatterAdd Host.rsqrt in
theorem sum3_v19 : after hostOps3_1 W (Proc.devRef .tc main_v19)
    = Cert.Gcn.segSum3 (W (Proc.devRef .tc main_v16)) (W (Proc.devRef .tc main_arg6)) := by
  after_results_simp
  rfl

theorem sum3_v20 : after hostOps3_1 W (Proc.devRef .tc main_v20)
    = shapeCast S1x1 (W (Proc.devRef .tc main_arg4) : S1.Idx → Elt F .f32) shapeCasts_S1_S1x1 := by
  after_results_simp
  rfl

theorem sum3_arg3 : after hostOps3_1 W (Proc.devRef .tc main_arg3) = W (Proc.devRef .tc main_arg3) := by after_results_simp
theorem sum3_v7 : after hostOps3_1 W (Proc.devRef .tc main_v7) = W (Proc.devRef .tc main_v7) := by after_results_simp

end Cert.KernelIdeal.Hand

end
-- ==== Proof.Premul1.lean ====
/-
  The first layer's pre-normalisation pass. The node axis (1,000,000 rows) is cut into 500 blocks of 2,000 rows; at block
  `t` the body multiplies the feature block by the degree-weight block, entry by entry, and writes the product back to
  rows `2000·t … 2000·t + 1999`. The three windows move together (block index `(t, 0)`), so what the blocks leave in the
  output array, put together, is the entrywise product of the two whole arrays.
-/
import proofs.«170145_j62380105008026_2_alg».proof.Proof.Gen.KernelIdeal.Frame
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- The body's stored value is the entrywise product of its two loaded blocks. -/
theorem premul1_payload (x0 x1 : Vec F S2000x1 .f32) : k0_pay1 x0 x1 = mulf x0 x1 := by
  unfold k0_pay1; simp only [shapeCast_self]

/-- Every window of the pass sits at block `(t, 0)` at point `t`. -/
theorem premul1_blocks : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the entrywise product of the whole arrays. -/
theorem premul1_flushed (c : Dev nD) (t : Fin cfg0.N) :
    (dat0 V c).flushed 2 t = ((cfg0.win 2).blk t).view.read (Elt F)
      (mulf (V c main_arg0 : S1000000x1.Idx → Elt F .f32) (V c main_v7 : S1000000x1.Idx → Elt F .f32)) := by
  show (cfg0.win 2).cut (grid0.coords t) ((dat0 V c).after 2 t) = _
  rw [after0_2]
  unfold out0_2
  rw [View.canon_unit_zero zero_offsets]
  simp only [View.ld_unit_zero (S := S2000x1) zero_offsets]
  rw [premul1_payload]
  obtain ⟨e0, e1, e2, e3, e4, e5⟩ := premul1_blocks t
  funext j
  show FloatOps.mulf (V c main_arg0 (((cfg0.win 0).blk t).view.emb j)) (V c main_v7 (((cfg0.win 1).blk t).view.emb j))
    = FloatOps.mulf (V c main_arg0 (((cfg0.win 2).blk t).view.emb j)) (V c main_v7 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 1 + 1 * (j 1).val = win0_2.index t (1 : Fin 2) * 1 + 1 * (j 1).val; omega
  have h1 : ((cfg0.win 1).blk t).view.emb j = ((cfg0.win 2).blk t).view.emb j := by
    funext a; apply Fin.ext
    match a with
    | ⟨0, _⟩ => show win0_1.index t (0 : Fin 2) * 2000 + 1 * (j 0).val = win0_2.index t (0 : Fin 2) * 2000 + 1 * (j 0).val; omega
    | ⟨1, _⟩ => show win0_1.index t (1 : Fin 2) * 1 + 1 * (j 1).val = win0_2.index t (1 : Fin 2) * 1 + 1 * (j 1).val; omega
  rw [h0, h1]

/-- Row `r` lies in block `r / 2000`: the 500 blocks cover the output array. -/
theorem premul1_cover (c : Dev nD) (i : S1000000x1.Idx) :
    ∃ t : Fin cfg0.N, (cfg0.win 2).flush t = true ∧ i ∈ ((cfg0.win 2).blk t).view.set := by
  have hN : cfg0.N = 500 := N_0
  have hi0 : (i 0).val < 1000000 := (i 0).isLt
  have hi1 : (i 1).val < 1 := (i 1).isLt
  let t : Fin cfg0.N := ⟨(i 0).val / 2000, by rw [hN]; omega⟩
  obtain ⟨_, _, _, _, e4, e5⟩ := premul1_blocks t
  have ht : t.val = (i 0).val / 2000 := rfl
  refine ⟨t, flush0_2 t, ?_⟩
  show i ∈ ((View.whole main_v8).slice (win0_2.rect t)).set
  rw [View.set_slice_whole, Rect.mem_set_unit]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 1 ≤ (i 1).val ∧ (i 1).val < win0_2.index t (1 : Fin 2) * 1 + 1; omega

/-- After the pass the output array is the entrywise product of the feature array and the degree-weight array. -/
theorem premul1_final (c : Dev nD) :
    (dat0 V c).arrAt 2 cfg0.N
      = mulf (V c main_arg0 : S1000000x1.Idx → Elt F .f32) (V c main_v7 : S1000000x1.Idx → Elt F .f32) :=
  (dat0 V c).arrAt_eq_of_cover 2 _ (fun t _ => premul1_flushed V c t) (premul1_cover c)

end Cert.KernelIdeal.Blocks

end
-- ==== Proof.LibKeepdimsLayout.lean ====
/-
  Layout operations read at an index given by coordinates, for the shapes a row-wise reduction with a kept axis and a
  block with two leading unit axes produce: a vector `[a]` cast to a column `[a, 1]`, a column `[a, 1]` broadcast
  along its rows to `[a, b]`, and the casts between `[1, 1, a, b]` and `[a, b]`. A cast keeps the row-major position,
  and a unit axis contributes nothing to it; a broadcast re-reads the column's one entry of the row at every column.
  Each lemma is the general read-at-an-index lemma of the operation with both indices written by coordinates, so that
  it applies to a printed operation by unification.
-/
import Idealize.ShloMosaic.Lib.Pipeline.Value
import Idealize.ShloMosaic.Lib.ValueIdx

namespace Cert.LayoutKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LayoutKeepdims
-- ==== Proof.LibHostKeepdims.lean ====
/-
  Host operations of a row-wise reduction with a kept axis, read at an index given by coordinates.

  jnp's  mean(h, axis=-1, keepdims=True)  lowers to a reduce-add over the last axis (a vector [a]), a broadcast_in_dim of
  that vector to a column [a, 1], and a divide by a scalar constant broadcast to the column; using the column against
  the matrix broadcasts it to [a, b]. Read at an index: the column of a vector at (r, u) is the vector at r; the matrix of a
  column at (r, q) is the column at (r, 0); a scalar constant broadcast to any shape is the constant's value everywhere;
  the host's float row sum at r is the initial value plus Σ_k x[r, k] on the extended reals.
-/
import Idealize.ShloMosaic.PureOps.Ideal.Laws
import Idealize.ShloMosaic.Lib.ValueIdx
import Idealize.ShloMosaic.Lib.Pipeline.Value

noncomputable section

open scoped BigOperators

namespace Idealize.ShloMosaic.HostKeepdims

open Idealize.ShloMosaic Idealize.ShloMosaic.ValueIdx

variable {α : Type}

/-- A vector [a] placed as a column [a, 1] reads, at (r, u), the vector at r. -/
theorem column_apply {a : ℕ} (v : (⟨1, ![a]⟩ : Shape).Idx → α)
    (h : (⟨1, ![a]⟩ : Shape).BroadcastsInDim ⟨2, ![a, 1]⟩ ![0]) (r : Fin a) (u : Fin 1) :
    broadcastInDim ⟨2, ![a, 1]⟩ ![0] h v (ix2 r u) = v (ix1 r) :=
  broadcastInDim_apply ![0] h v (ix2 r u) (ix1 r) (fun ax => by
    match ax with
    | ⟨0, _⟩ =>
      show r.val = if a = 1 then 0 else r.val
      split
      · have := r.isLt; omega
      · rfl)

/-- A column [a, 1] repeated along its rows to [a, b] reads, at (r, q), the column's entry of row r. -/
theorem column_bcast_apply {a b : ℕ} (v : (⟨2, ![a, 1]⟩ : Shape).Idx → α)
    (h : (⟨2, ![a, 1]⟩ : Shape).BroadcastsInDim ⟨2, ![a, b]⟩ ![0, 1]) (r : Fin a) (q : Fin b) :
    broadcastInDim ⟨2, ![a, b]⟩ ![0, 1] h v (ix2 r q) = v (ix2 r (0 : Fin 1)) :=
  broadcastInDim_apply ![0, 1] h v (ix2 r q) (ix2 r (0 : Fin 1)) (fun ax => by
    match ax with
    | ⟨0, _⟩ =>
      show r.val = if a = 1 then 0 else r.val
      split
      · have := r.isLt; omega
      · rfl
    | ⟨1, _⟩ => rfl)

/-- A scalar constant broadcast to a whole shape reads the word's value everywhere. -/
theorem splat_apply {t : Shape} {φ : FTy} (w : BitVec φ.bits) (h0 : (⟨0, ![]⟩ : Shape).BroadcastsInDim t ![]) (i : t.Idx) :
    broadcastInDim t ![] h0 (constant (F := Ideal) ⟨0, ![]⟩ φ w) i = Ideal.ofBits φ w := by
  rw [broadcastInDim_apply ![] h0 _ i ix0 (fun a => a.elim0), constant_apply]

/-- The source index over row r with column k put back on the dropped last axis is (r, k). -/
theorem lift_row {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- THE HOST ROW SUM: the host's float reduce-add of a [a, b] matrix over its columns from a scalar constant has at row r
    the constant's value plus Σ_k x[r, k]. -/
theorem rowSum_apply {a b : ℕ} {φ : FTy} (x : FVec Ideal ⟨2, ![a, b]⟩ φ) (w : BitVec φ.bits)
    (h' : (⟨2, ![a, b]⟩ : Shape).ReducesTo [1] ⟨1, ![a]⟩) (hu : 0 < (⟨0, ![]⟩ : Shape).numel)
    (hred : (⟨2, ![a, b]⟩ : Shape).Reduces [1] ⟨1, ![a]⟩) (r : Fin a) :
    Host.reduceAdd x (constant (F := Ideal) ⟨0, ![]⟩ φ w) h' hu (ix1 r) = Ideal.ofBits φ w + ∑ k : Fin b, x (ix2 r k) := by
  refine (Ideal.hostReduceAdd_single h' hred x _ (ix1 r)).trans ?_
  exact congrArg (Ideal.ofBits φ w + ·) (Finset.sum_congr rfl fun k _ => congrArg x (lift_row hred r k))

end Idealize.ShloMosaic.HostKeepdims

end
-- ==== Proof.Premul3.lean ====
/-
  The second layer's pre-normalisation pass. The hidden table `h` has three columns; at block `t` (rows
  `2000·t … 2000·t + 1999`) the body multiplies every column of the block by the block of the degree-weight column, the
  column repeated along the three lanes. The feature window and the output window sit at block `(t, 0)` of `[N, 3]`
  arrays, the weight window at block `(t, 0)` of the `[N, 1]` column, so the blocks put together are `h` with row `r`
  scaled by the weight of row `r`.
-/
import proofs.«170145_j62380105008026_2_alg».proof.Proof.Gen.KernelIdeal.Frame
import proofs.«170145_j62380105008026_2_alg».proof.Proof.Spec
import proofs.«170145_j62380105008026_2_alg».proof.Proof.LibKeepdimsLayout
import proofs.«170145_j62380105008026_2_alg».proof.Proof.LibHostKeepdims
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem zero_offsets3 : (![0, 0] : Fin 2 → Nat) = fun _ => 0 := funext fun a => by fin_cases a <;> rfl

/-- The body's stored value: the table block times the weight block repeated along the lanes. -/
theorem premul3_payload (x0 : Vec F S2000x3 .f32) (x1 : Vec F S2000x1 .f32) :
    k2_pay1 x0 x1 = mulf x0 (broadcastTo S2000x3 x1 broadcasts_S2000x1_S2000x3) := by
  unfold k2_pay1; simp only [shapeCast_self]

/-- Every window of the pass sits at block `(t, 0)` at point `t`. -/
theorem premul3_blocks : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the table with every row scaled by its degree weight. -/
theorem premul3_flushed (c : Dev nD) (t : Fin cfg2.N) :
    (dat2 V c).flushed 2 t = ((cfg2.win 2).blk t).view.read (Elt F)
      (Cert.Gcn.scale3 (V c main_v14) (V c main_v7)) := by
  show (cfg2.win 2).cut (grid2.coords t) ((dat2 V c).after 2 t) = _
  rw [after2_2]
  unfold out2_2
  rw [View.canon_unit_zero zero_offsets3]
  simp only [View.ld_unit_zero (S := S2000x3) zero_offsets3, View.ld_unit_zero (S := S2000x1) zero_offsets3]
  rw [premul3_payload]
  have hN : cfg2.N = 500 := N_2
  have htlt : t.val < 500 := hN ▸ t.isLt
  obtain ⟨e0, e1, e2, e3, e4, e5⟩ := premul3_blocks t
  funext j
  obtain ⟨p, q, rfl⟩ : ∃ (p : Fin 2000) (q : Fin 3), j = ix2 p q := ⟨j 0, j 1, eq_ix2 j⟩
  have hp : p.val < 2000 := p.isLt
  let r : Fin 1000000 := ⟨t.val * 2000 + p.val, by omega⟩
  have h0 : ((cfg2.win 0).blk t).view.emb (ix2 p q) = ix2 r q := by
    funext a; apply Fin.ext
    match a with
    | ⟨0, _⟩ => show win2_0.index t (0 : Fin 2) * 2000 + 1 * p.val = t.val * 2000 + p.val; omega
    | ⟨1, _⟩ => show win2_0.index t (1 : Fin 2) * 3 + 1 * q.val = q.val; omega
  have h1 : ((cfg2.win 1).blk t).view.emb (ix2 p (0 : Fin 1)) = ix2 r (0 : Fin 1) := by
    funext a; apply Fin.ext
    match a with
    | ⟨0, _⟩ => show win2_1.index t (0 : Fin 2) * 2000 + 1 * p.val = t.val * 2000 + p.val; omega
    | ⟨1, _⟩ => show win2_1.index t (1 : Fin 2) * 1 + 1 * 0 = 0; omega
  have h2 : ((cfg2.win 2).blk t).view.emb (ix2 p q) = ix2 r q := by
    funext a; apply Fin.ext
    match a with
    | ⟨0, _⟩ => show win2_2.index t (0 : Fin 2) * 2000 + 1 * p.val = t.val * 2000 + p.val; omega
    | ⟨1, _⟩ => show win2_2.index t (1 : Fin 2) * 3 + 1 * q.val = q.val; omega
  show FloatOps.mulf (V c main_v14 (((cfg2.win 0).blk t).view.emb (ix2 p q)))
      (broadcastTo S2000x3 (iblk2 V c 1 t) broadcasts_S2000x1_S2000x3 (ix2 p q))
    = FloatOps.mulf (V c main_v14 (((cfg2.win 2).blk t).view.emb (ix2 p q)))
      (broadcastInDim Cert.ReferenceIdeal.S1000000x3 ![0, 1] Cert.ReferenceIdeal.Facts₀.bcast_S1000000x1_S1000000x3_0_1
        (V c main_v7) (((cfg2.win 2).blk t).view.emb (ix2 p q)))
  rw [h0, h2, Cert.LayoutKeepdims.broadcastTo_a1_ab_apply, Idealize.ShloMosaic.HostKeepdims.column_bcast_apply]
  show FloatOps.mulf _ (V c main_v7 (((cfg2.win 1).blk t).view.emb (ix2 p (0 : Fin 1)))) = _
  rw [h1]

/-- Row `r` lies in block `r / 2000`: the 500 blocks cover the output array. -/
theorem premul3_cover (c : Dev nD) (i : S1000000x3.Idx) :
    ∃ t : Fin cfg2.N, (cfg2.win 2).flush t = true ∧ i ∈ ((cfg2.win 2).blk t).view.set := by
  have hN : cfg2.N = 500 := N_2
  have hi0 : (i 0).val < 1000000 := (i 0).isLt
  have hi1 : (i 1).val < 3 := (i 1).isLt
  let t : Fin cfg2.N := ⟨(i 0).val / 2000, by rw [hN]; omega⟩
  obtain ⟨_, _, _, _, e4, e5⟩ := premul3_blocks t
  have ht : t.val = (i 0).val / 2000 := rfl
  refine ⟨t, flush2_2 t, ?_⟩
  show i ∈ ((View.whole main_v15).slice (win2_2.rect t)).set
  rw [View.set_slice_whole, Rect.mem_set_unit]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 3 ≤ (i 1).val ∧ (i 1).val < win2_2.index t (1 : Fin 2) * 3 + 3; omega

/-- After the pass the output array is the hidden table with every row scaled by its degree weight. -/
theorem premul3_final (c : Dev nD) :
    (dat2 V c).arrAt 2 cfg2.N = Cert.Gcn.scale3 (V c main_v14) (V c main_v7) :=
  (dat2 V c).arrAt_eq_of_cover 2 _ (fun t _ => premul3_flushed V c t) (premul3_cover c)

end Cert.KernelIdeal.Blocks

end
-- ==== Proof.KernelFold.lean ====
/-
  The kernel program's result as the network of its arguments. The contents of the buffers at the nine segment boundaries
  are followed from the launch to the return: a host stretch applies its stage to the buffers it reads and leaves the others;
  a pipelined pass leaves its output array at the stage its blocks compute, its input arrays and every other buffer as they
  were. The arguments and the degree-weight column, written by no later segment, ride through every boundary unchanged,
  so each stage is applied to the earlier stages of the same seven arrays, and the last boundary's result buffer holds the
  composition. The two dense passes enter as hypotheses on what they leave for any entry contents.
-/
import proofs.«170145_j62380105008026_2_alg».proof.Proof.KernelRun
import proofs.«170145_j62380105008026_2_alg».proof.Proof.KernelHost
import proofs.«170145_j62380105008026_2_alg».proof.Proof.Premul1
import proofs.«170145_j62380105008026_2_alg».proof.Proof.Premul3

noncomputable section

namespace Cert.KernelIdeal.Hand

open Cert.KernelIdeal Cert.KernelIdeal.Gen Idealize.ShloMosaic Idealize.ShloMosaic.StableHlo Idealize.ShloMosaic.TcCoe
open Idealize.SL.Sem
open Idealize.ShloMosaic.Pipeline (Dat)

variable (m : (ℓ : Loc nD τ sig) → Buf (Elt Ideal) ℓ) (ρ : Dev nD → PrngReg) (c : Dev nD)

/-- The degree weights of the destination array. -/
abbrev wts : (⟨Cert.ReferenceIdeal.S1000000x1, .f32⟩ : BufTy).Contents (Elt Ideal) :=
  Cert.Gcn.degWeight (m ((c.tc : Thread nD τ).loc main_arg6))

/-- The feature column with every row scaled by its degree weight. -/
abbrev scaled1 : (⟨Cert.ReferenceIdeal.S1000000x1, .f32⟩ : BufTy).Contents (Elt Ideal) :=
  mulf (F := Ideal) (s := Cert.ReferenceIdeal.S1000000x1) (φ := .f32) (m ((c.tc : Thread nD τ).loc main_arg0)) (wts m c)

/-! ## Region 0's entry -/

theorem w1_arg0 : W1 m ρ c (Proc.devRef .tc main_arg0) = m ((c.tc : Thread nD τ).loc main_arg0) := head_arg0 (W0 m ρ c)
theorem w1_arg1 : W1 m ρ c (Proc.devRef .tc main_arg1) = m ((c.tc : Thread nD τ).loc main_arg1) := head_arg1 (W0 m ρ c)
theorem w1_arg2 : W1 m ρ c (Proc.devRef .tc main_arg2) = m ((c.tc : Thread nD τ).loc main_arg2) := head_arg2 (W0 m ρ c)
theorem w1_arg3 : W1 m ρ c (Proc.devRef .tc main_arg3) = m ((c.tc : Thread nD τ).loc main_arg3) := head_arg3 (W0 m ρ c)
theorem w1_arg4 : W1 m ρ c (Proc.devRef .tc main_arg4) = m ((c.tc : Thread nD τ).loc main_arg4) := head_arg4 (W0 m ρ c)
theorem w1_arg5 : W1 m ρ c (Proc.devRef .tc main_arg5) = m ((c.tc : Thread nD τ).loc main_arg5) := head_arg5 (W0 m ρ c)
theorem w1_arg6 : W1 m ρ c (Proc.devRef .tc main_arg6) = m ((c.tc : Thread nD τ).loc main_arg6) := head_arg6 (W0 m ρ c)
theorem w1_v7 : W1 m ρ c (Proc.devRef .tc main_v7) = wts m c := head_v7 (W0 m ρ c)

/-! ## Region 0's exit: the scaled feature column -/

theorem w2_v8 : W2 m ρ c (Proc.devRef .tc main_v8)
    = scaled1 m c := by
  refine (W2_arr m ρ c 2).trans ?_
  rw [Blocks.premul1_final (V1 m ρ) c]
  show mulf (F := Ideal) (s := Cert.ReferenceIdeal.S1000000x1) (φ := .f32) (W1 m ρ c (Proc.devRef .tc main_arg0)) (W1 m ρ c (Proc.devRef .tc main_v7)) = _
  rw [w1_arg0, w1_v7]

theorem w2_arg1 : W2 m ρ c (Proc.devRef .tc main_arg1) = m ((c.tc : Thread nD τ).loc main_arg1) :=
  (W2_of_ne m ρ c main_arg1 (by decide)).trans (w1_arg1 m ρ c)
theorem w2_arg2 : W2 m ρ c (Proc.devRef .tc main_arg2) = m ((c.tc : Thread nD τ).loc main_arg2) :=
  (W2_of_ne m ρ c main_arg2 (by decide)).trans (w1_arg2 m ρ c)
theorem w2_arg3 : W2 m ρ c (Proc.devRef .tc main_arg3) = m ((c.tc : Thread nD τ).loc main_arg3) :=
  (W2_of_ne m ρ c main_arg3 (by decide)).trans (w1_arg3 m ρ c)
theorem w2_arg4 : W2 m ρ c (Proc.devRef .tc main_arg4) = m ((c.tc : Thread nD τ).loc main_arg4) :=
  (W2_of_ne m ρ c main_arg4 (by decide)).trans (w1_arg4 m ρ c)
theorem w2_arg5 : W2 m ρ c (Proc.devRef .tc main_arg5) = m ((c.tc : Thread nD τ).loc main_arg5) :=
  (W2_of_ne m ρ c main_arg5 (by decide)).trans (w1_arg5 m ρ c)
theorem w2_arg6 : W2 m ρ c (Proc.devRef .tc main_arg6) = m ((c.tc : Thread nD τ).loc main_arg6) :=
  (W2_of_ne m ρ c main_arg6 (by decide)).trans (w1_arg6 m ρ c)
theorem w2_v7 : W2 m ρ c (Proc.devRef .tc main_v7) = wts m c :=
  (W2_arr m ρ c 1).trans (((dat0 (V1 m ρ) c).arrAt_in 1 rfl _).trans ((A_eq0 (V1 m ρ) c 1).trans (w1_v7 m ρ c)))

/-! ## After the first `take` -/

theorem w3_v9 : W3 m ρ c (Proc.devRef .tc main_v9)
    = Cert.Gcn.takeRows1 (scaled1 m c)
        (m ((c.tc : Thread nD τ).loc main_arg5)) := by
  refine (take1_v9 (W2 m ρ c)).trans ?_
  rw [w2_v8, w2_arg5]

theorem w3_arg1 : W3 m ρ c (Proc.devRef .tc main_arg1) = m ((c.tc : Thread nD τ).loc main_arg1) :=
  (take1_arg1 (W2 m ρ c)).trans (w2_arg1 m ρ c)
theorem w3_arg2 : W3 m ρ c (Proc.devRef .tc main_arg2) = m ((c.tc : Thread nD τ).loc main_arg2) :=
  (take1_arg2 (W2 m ρ c)).trans (w2_arg2 m ρ c)
theorem w3_arg3 : W3 m ρ c (Proc.devRef .tc main_arg3) = m ((c.tc : Thread nD τ).loc main_arg3) :=
  (take1_arg3 (W2 m ρ c)).trans (w2_arg3 m ρ c)
theorem w3_arg4 : W3 m ρ c (Proc.devRef .tc main_arg4) = m ((c.tc : Thread nD τ).loc main_arg4) :=
  (take1_arg4 (W2 m ρ c)).trans (w2_arg4 m ρ c)
theorem w3_arg5 : W3 m ρ c (Proc.devRef .tc main_arg5) = m ((c.tc : Thread nD τ).loc main_arg5) :=
  (take1_arg5 (W2 m ρ c)).trans (w2_arg5 m ρ c)
theorem w3_arg6 : W3 m ρ c (Proc.devRef .tc main_arg6) = m ((c.tc : Thread nD τ).loc main_arg6) :=
  (take1_arg6 (W2 m ρ c)).trans (w2_arg6 m ρ c)
theorem w3_v7 : W3 m ρ c (Proc.devRef .tc main_v7) = wts m c := (take1_v7 (W2 m ρ c)).trans (w2_v7 m ρ c)

/-! ## Region 1's entry: the first aggregate and the bias row -/

/-- The first layer's aggregate: the gathered rows summed into their destination nodes. -/
abbrev agg1 : (⟨Cert.ReferenceIdeal.S1000000x1, .f32⟩ : BufTy).Contents (Elt Ideal) :=
  Cert.Gcn.segSum1
    (Cert.Gcn.takeRows1 (scaled1 m c)
      (m ((c.tc : Thread nD τ).loc main_arg5)))
    (m ((c.tc : Thread nD τ).loc main_arg6))

theorem w4_v12 : W4 m ρ c (Proc.devRef .tc main_v12) = agg1 m c := by
  refine (sum1_v12 (W3 m ρ c)).trans ?_
  rw [w3_v9, w3_arg6]

theorem w4_v13 : W4 m ρ c (Proc.devRef .tc main_v13)
    = shapeCast S1x3 (m ((c.tc : Thread nD τ).loc main_arg2) : S3.Idx → Elt Ideal .f32) shapeCasts_S3_S1x3 := by
  refine (sum1_v13 (W3 m ρ c)).trans ?_
  rw [w3_arg2]

theorem w4_arg1 : W4 m ρ c (Proc.devRef .tc main_arg1) = m ((c.tc : Thread nD τ).loc main_arg1) :=
  (sum1_arg1 (W3 m ρ c)).trans (w3_arg1 m ρ c)
theorem w4_arg3 : W4 m ρ c (Proc.devRef .tc main_arg3) = m ((c.tc : Thread nD τ).loc main_arg3) :=
  (sum1_arg3 (W3 m ρ c)).trans (w3_arg3 m ρ c)
theorem w4_arg4 : W4 m ρ c (Proc.devRef .tc main_arg4) = m ((c.tc : Thread nD τ).loc main_arg4) :=
  (sum1_arg4 (W3 m ρ c)).trans (w3_arg4 m ρ c)
theorem w4_arg5 : W4 m ρ c (Proc.devRef .tc main_arg5) = m ((c.tc : Thread nD τ).loc main_arg5) :=
  (sum1_arg5 (W3 m ρ c)).trans (w3_arg5 m ρ c)
theorem w4_arg6 : W4 m ρ c (Proc.devRef .tc main_arg6) = m ((c.tc : Thread nD τ).loc main_arg6) :=
  (sum1_arg6 (W3 m ρ c)).trans (w3_arg6 m ρ c)
theorem w4_v7 : W4 m ρ c (Proc.devRef .tc main_v7) = wts m c := (sum1_v7 (W3 m ρ c)).trans (w3_v7 m ρ c)

section Dense

-- what the first dense pass leaves, for any entry contents
variable (hdense1 : ∀ (V : (c : Dev nD) → (b : Ref sig .tc) → Buf (Elt Ideal) ((c : Thread nD τ).loc b)) (c : Dev nD),
  (dat1 (F := Ideal) V c).arrAt 4 cfg1.N = Cert.Gcn.dense1 (F := Ideal) (V c main_v12) (V c main_v7) (V c main_arg1) (V c main_v13))
-- what the second dense pass leaves, for any entry contents
variable (hdense2 : ∀ (V : (c : Dev nD) → (b : Ref sig .tc) → Buf (Elt Ideal) ((c : Thread nD τ).loc b)) (c : Dev nD),
  (dat3 (F := Ideal) V c).arrAt 4 cfg3.N = Cert.Gcn.dense2 (F := Ideal) (V c main_v19) (V c main_v7) (V c main_arg3) (V c main_v20))

/-! ## Region 1's exit: the hidden table -/

/-- The first layer's output. -/
abbrev hidden : (⟨Cert.ReferenceIdeal.S1000000x3, .f32⟩ : BufTy).Contents (Elt Ideal) :=
  Cert.Gcn.dense1 (agg1 m c) (wts m c) (m ((c.tc : Thread nD τ).loc main_arg1))
    (shapeCast S1x3 (m ((c.tc : Thread nD τ).loc main_arg2) : S3.Idx → Elt Ideal .f32) shapeCasts_S3_S1x3)

include hdense1 in
theorem w5_v14 : W5 m ρ c (Proc.devRef .tc main_v14) = hidden m c := by
  refine (W5_arr m ρ c 4).trans ?_
  rw [hdense1 (V4 m ρ) c]
  show Cert.Gcn.dense1 (W4 m ρ c (Proc.devRef .tc main_v12)) (W4 m ρ c (Proc.devRef .tc main_v7))
    (W4 m ρ c (Proc.devRef .tc main_arg1)) (W4 m ρ c (Proc.devRef .tc main_v13)) = _
  rw [w4_v12, w4_v7, w4_arg1, w4_v13]

theorem w5_arg3 : W5 m ρ c (Proc.devRef .tc main_arg3) = m ((c.tc : Thread nD τ).loc main_arg3) :=
  (W5_of_ne m ρ c main_arg3 (by decide)).trans (w4_arg3 m ρ c)
theorem w5_arg4 : W5 m ρ c (Proc.devRef .tc main_arg4) = m ((c.tc : Thread nD τ).loc main_arg4) :=
  (W5_of_ne m ρ c main_arg4 (by decide)).trans (w4_arg4 m ρ c)
theorem w5_arg5 : W5 m ρ c (Proc.devRef .tc main_arg5) = m ((c.tc : Thread nD τ).loc main_arg5) :=
  (W5_of_ne m ρ c main_arg5 (by decide)).trans (w4_arg5 m ρ c)
theorem w5_arg6 : W5 m ρ c (Proc.devRef .tc main_arg6) = m ((c.tc : Thread nD τ).loc main_arg6) :=
  (W5_of_ne m ρ c main_arg6 (by decide)).trans (w4_arg6 m ρ c)
theorem w5_v7 : W5 m ρ c (Proc.devRef .tc main_v7) = wts m c :=
  (W5_arr m ρ c 1).trans (((dat1 (V4 m ρ) c).arrAt_in 1 rfl _).trans ((A_eq1 (V4 m ρ) c 1).trans (w4_v7 m ρ c)))

/-! ## Region 2's exit: the scaled hidden table -/

include hdense1 in
theorem w6_v15 : W6 m ρ c (Proc.devRef .tc main_v15) = Cert.Gcn.scale3 (hidden m c) (wts m c) := by
  refine (W6_arr m ρ c 2).trans ?_
  rw [Blocks.premul3_final (V5 m ρ) c]
  show Cert.Gcn.scale3 (W5 m ρ c (Proc.devRef .tc main_v14)) (W5 m ρ c (Proc.devRef .tc main_v7)) = _
  rw [w5_v14 m ρ c hdense1, w5_v7]

theorem w6_arg3 : W6 m ρ c (Proc.devRef .tc main_arg3) = m ((c.tc : Thread nD τ).loc main_arg3) :=
  (W6_of_ne m ρ c main_arg3 (by decide)).trans (w5_arg3 m ρ c)
theorem w6_arg4 : W6 m ρ c (Proc.devRef .tc main_arg4) = m ((c.tc : Thread nD τ).loc main_arg4) :=
  (W6_of_ne m ρ c main_arg4 (by decide)).trans (w5_arg4 m ρ c)
theorem w6_arg5 : W6 m ρ c (Proc.devRef .tc main_arg5) = m ((c.tc : Thread nD τ).loc main_arg5) :=
  (W6_of_ne m ρ c main_arg5 (by decide)).trans (w5_arg5 m ρ c)
theorem w6_arg6 : W6 m ρ c (Proc.devRef .tc main_arg6) = m ((c.tc : Thread nD τ).loc main_arg6) :=
  (W6_of_ne m ρ c main_arg6 (by decide)).trans (w5_arg6 m ρ c)
theorem w6_v7 : W6 m ρ c (Proc.devRef .tc main_v7) = wts m c :=
  (W6_arr m ρ c 1).trans (((dat2 (V5 m ρ) c).arrAt_in 1 rfl _).trans ((A_eq2 (V5 m ρ) c 1).trans (w5_v7 m ρ c)))

/-! ## After the second `take`, and region 3's entry -/

/-- The second layer's aggregate. -/
abbrev agg2 : (⟨Cert.ReferenceIdeal.S1000000x3, .f32⟩ : BufTy).Contents (Elt Ideal) :=
  Cert.Gcn.segSum3 (Cert.Gcn.takeRows3 (Cert.Gcn.scale3 (hidden m c) (wts m c)) (m ((c.tc : Thread nD τ).loc main_arg5)))
    (m ((c.tc : Thread nD τ).loc main_arg6))

include hdense1 in
theorem w7_v16 : W7 m ρ c (Proc.devRef .tc main_v16)
    = Cert.Gcn.takeRows3 (Cert.Gcn.scale3 (hidden m c) (wts m c)) (m ((c.tc : Thread nD τ).loc main_arg5)) := by
  refine (take3_v16 (W6 m ρ c)).trans ?_
  rw [w6_v15 m ρ c hdense1, w6_arg5]

theorem w7_arg3 : W7 m ρ c (Proc.devRef .tc main_arg3) = m ((c.tc : Thread nD τ).loc main_arg3) :=
  (take3_arg3 (W6 m ρ c)).trans (w6_arg3 m ρ c)
theorem w7_arg4 : W7 m ρ c (Proc.devRef .tc main_arg4) = m ((c.tc : Thread nD τ).loc main_arg4) :=
  (take3_arg4 (W6 m ρ c)).trans (w6_arg4 m ρ c)
theorem w7_arg6 : W7 m ρ c (Proc.devRef .tc main_arg6) = m ((c.tc : Thread nD τ).loc main_arg6) :=
  (take3_arg6 (W6 m ρ c)).trans (w6_arg6 m ρ c)
theorem w7_v7 : W7 m ρ c (Proc.devRef .tc main_v7) = wts m c := (take3_v7 (W6 m ρ c)).trans (w6_v7 m ρ c)

include hdense1 in
theorem w8_v19 : W8 m ρ c (Proc.devRef .tc main_v19) = agg2 m c := by
  refine (sum3_v19 (W7 m ρ c)).trans ?_
  rw [w7_v16 m ρ c hdense1, w7_arg6]

theorem w8_v20 : W8 m ρ c (Proc.devRef .tc main_v20)
    = shapeCast S1x1 (m ((c.tc : Thread nD τ).loc main_arg4) : S1.Idx → Elt Ideal .f32) shapeCasts_S1_S1x1 := by
  refine (sum3_v20 (W7 m ρ c)).trans ?_
  rw [w7_arg4]

theorem w8_arg3 : W8 m ρ c (Proc.devRef .tc main_arg3) = m ((c.tc : Thread nD τ).loc main_arg3) :=
  (sum3_arg3 (W7 m ρ c)).trans (w7_arg3 m ρ c)
theorem w8_v7 : W8 m ρ c (Proc.devRef .tc main_v7) = wts m c := (sum3_v7 (W7 m ρ c)).trans (w7_v7 m ρ c)

/-! ## The result -/

include hdense1 hdense2 in
/-- The result buffer at the last boundary: the network of the seven arguments, the two bias vectors laid out as a row and
    a one-entry matrix by the program's own casts. -/
theorem result_value : W9 m ρ c (Proc.devRef .tc main_v21)
    = Cert.Gcn.network (m ((c.tc : Thread nD τ).loc main_arg0)) (m ((c.tc : Thread nD τ).loc main_arg1))
        (shapeCast S1x3 (m ((c.tc : Thread nD τ).loc main_arg2) : S3.Idx → Elt Ideal .f32) shapeCasts_S3_S1x3)
        (m ((c.tc : Thread nD τ).loc main_arg3))
        (shapeCast S1x1 (m ((c.tc : Thread nD τ).loc main_arg4) : S1.Idx → Elt Ideal .f32) shapeCasts_S1_S1x1)
        (m ((c.tc : Thread nD τ).loc main_arg5)) (m ((c.tc : Thread nD τ).loc main_arg6)) := by
  refine (W9_arr m ρ c 4).trans ?_
  rw [hdense2 (V8 m ρ) c]
  show Cert.Gcn.dense2 (W8 m ρ c (Proc.devRef .tc main_v19)) (W8 m ρ c (Proc.devRef .tc main_v7))
    (W8 m ρ c (Proc.devRef .tc main_arg3)) (W8 m ρ c (Proc.devRef .tc main_v20)) = _
  rw [w8_v19 m ρ c hdense1, w8_v7, w8_arg3, w8_v20]
  rfl

end Dense

end Cert.KernelIdeal.Hand

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.LibDotInnerHost.lean ====
/-
  The host's matrix product along the last axis of the first operand and the first axis of the second, read at an entry,
  and the six facts about a record of dimension numbers that both readings (the matrix unit's and the host's) ask for,
  bundled so that a caller proves them once per record.

  For a [M, K] matrix against a [K, N] matrix both products have at (p, f) the entry Σ_k x[p, k] · W[k, f] over the
  extended reals: the host's product carries no accumulator, the matrix unit's starts from the zero splat.
-/
import Idealize.ShloMosaic.PureOps.Ideal.Laws
import Idealize.ShloMosaic.Lib.ValueIdx
import proofs.«170145_j62380105008026_2_alg».proof.Proof.LibDotInner

noncomputable section

open scoped BigOperators

namespace Idealize.ShloMosaic.DotInner

open Idealize.ShloMosaic Idealize.ShloMosaic.ValueIdx

variable {M N K : ℕ} {φ₁ φ₂ : FTy}

/-- What a plain row-by-column product's dimension numbers say: one contracted axis of extent K; the left operand's
    coordinates are (result row, contraction index), the right operand's (contraction index, result column). -/
structure Plain (D : DotDims ⟨2, ![M, K]⟩ ⟨2, ![K, N]⟩ ⟨2, ![M, N]⟩) : Prop where
  rank : D.contr.rank = 1
  size : D.contr.size ⟨0, by omega⟩ = K
  l0 : ∀ j q, (D.lhsIdx j q 0).val = (j 0).val
  l1 : ∀ j q, (D.lhsIdx j q 1).val = (q ⟨0, by omega⟩).val
  r0 : ∀ j q, (D.rhsIdx j q 0).val = (q ⟨0, by omega⟩).val
  r1 : ∀ j q, (D.rhsIdx j q 1).val = (j 1).val

/-- The matrix unit from the zero splat, entry (p, f): Σ_k lhs[p, k] · rhs[k, f]. -/
theorem Plain.matmul_zero {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) :=
  matmul_zero_apply D h.rank h.size h.l0 h.l1 h.r0 h.r1 prec lhs rhs p f

/-- The host's product, entry (p, f): the same sum, with no accumulator. -/
theorem Plain.dotGeneral {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    Host.dotGeneral (F := Ideal) D prec lhs rhs (ix2 p f) = ∑ k : Fin K, lhs (ix2 p k) * rhs (ix2 k f) := by
  show FloatOps.dotGeneral D prec .single lhs rhs (ix2 p f) = _
  rw [Ideal.dotGeneral_apply, ← Equiv.sum_comp (contrEquiv1 D K h.rank h.size).symm]
  refine Finset.sum_congr rfl fun k _ => ?_
  obtain ⟨el, er⟩ := operand_idx D h.rank h.size h.l0 h.l1 h.r0 h.r1 p f k
  rw [el, er]

/-- The six facts of a record D whose lists say rows-by-columns (left operand of shape sl contracted on its axis 1, right
    operand of shape sr on its axis 0, no batch axes): the contraction's rank and extent compute; the contracted
    coordinates are the library's single-axis lemmas; the kept coordinates are read off the index maps' own case split,
    whose two membership tests are decided on the record's lists. -/
macro "plain_record " D:term ", " sl:term ", " sr:term : term => `(
  { rank := rfl
    size := rfl
    l0 := fun j q => by
      unfold DotDims.lhsIdx
      rw [dif_neg (show ¬(0 : Fin ($sl).rank) ∈ ($D).lhsBatch by decide),
        dif_pos (show (0 : Fin ($sl).rank) ∈ ($D).lhsNonContracting by decide)]
      rfl
    l1 := fun j q => DotDims.lhsIdx_val_of_single $D rfl j q
    r0 := fun j q => DotDims.rhsIdx_val_of_single $D rfl j q
    r1 := fun j q => by
      unfold DotDims.rhsIdx
      rw [dif_neg (show ¬(1 : Fin ($sr).rank) ∈ ($D).rhsBatch by decide),
        dif_pos (show (1 : Fin ($sr).rank) ∈ ($D).rhsNonContracting by decide)]
      rfl })

end Idealize.ShloMosaic.DotInner

end
-- ==== Proof.Postmul1.lean ====
/-
  The first layer's dense pass. The node axis (1,000,000 rows) is cut into 500 blocks of 2,000 rows; at block `t` the body
  multiplies the aggregate block by the degree-weight block, entry by entry, multiplies the resulting column by the weight
  row `[1,3]`, adds the bias row and cuts the result off below at zero, and writes the `[2000,3]` block back to rows
  `2000·t … 2000·t + 1999`. The aggregate, the degree weight and the output move together (block index `(t, 0)`); the weight
  row and the bias row are whole arrays, the same block `(0, 0)` at every point. Read at an entry `(r, q)`, both the body's
  value and the reference's dense step are `max ((a r · n r) · W q + b q, 0)` — the contraction runs over a single index — so
  what the blocks leave in the output array, put together, is the reference's dense step of the whole arrays.
-/
import proofs.«170145_j62380105008026_2_alg».proof.Proof.Gen.KernelIdeal.Frame
import proofs.«170145_j62380105008026_2_alg».proof.Proof.Spec
import proofs.«170145_j62380105008026_2_alg».proof.Proof.LibDotInnerHost
import proofs.«170145_j62380105008026_2_alg».proof.Proof.Premul1
import Idealize.ShloMosaic.Lib.Pipeline.Value
import Idealize.ShloMosaic.Lib.ValueIdx
import Idealize.ShloMosaic.Lib.ValueIdxCoords

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.DotInner

/-- The body's product is a plain rows-by-columns product contracting one index of extent 1. -/
theorem plain_k1 : Plain dot_S2000x1_S1x3_S2000x3_1_0_0_1_n_n :=
  plain_record dot_S2000x1_S1x3_S2000x3_1_0_0_1_n_n, S2000x1, S1x3

/-- So is the reference's, over the whole arrays. -/
theorem plain_h1 : Plain Cert.ReferenceIdeal.dot_S1000000x1_S1x3_S1000000x3_1_0_0_1_n_n :=
  plain_record Cert.ReferenceIdeal.dot_S1000000x1_S1x3_S1000000x3_1_0_0_1_n_n, Cert.ReferenceIdeal.S1000000x1, Cert.ReferenceIdeal.S1x3

/-- The body's stored value at row `p`, column `q`: the product of the two column entries of row `p`, times the weight of
    column `q`, plus the bias of column `q`, cut off below at zero. The contraction runs over one index, and the
    narrowing of the matrix unit's operands is the identity on the extended reals. -/
theorem postmul1_payload (x0 x1 : FVec Ideal S2000x1 .f32) (w b : FVec Ideal S1x3 .f32) (p : Fin 2000) (q : Fin 3) :
    k1_pay1 (F := Ideal) x0 x1 w b (ix2 p q)
      = max ((x0 (ix2 p 0) * x1 (ix2 p 0)) * w (ix2 0 q) + b (ix2 0 q)) 0 := by
  unfold k1_pay1
  simp only [shapeCast_self]
  rw [maximumf_apply, addf_apply, broadcast_apply]
  rw [show matmul dot_S2000x1_S1x3_S2000x3_1_0_0_1_n_n none (truncf .bf16 (mulf x0 x1) bitsLt_bf16_f32) (truncf .bf16 w bitsLt_bf16_f32) (constant S2000x3 .f32 0x00000000#32) (ix2 p q) = _ from plain_k1.matmul_zero _ _ _ p q]
  rw [Fin.sum_univ_one, truncf_apply, truncf_apply, mulf_apply]
  rw [broadcastTo_apply b broadcasts_S1x3_S2000x3 (ix2 p q) (ix2 0 q) (fun a => by match a with | ⟨0, _⟩ => rfl | ⟨1, _⟩ => rfl)]
  show max _ (Ideal.ofBits .f32 0x00000000#32) = _
  rw [Ideal.ofBits_zero_f32]

/-- The reference's dense step at row `r`, column `q`: the same expression over the whole arrays. The host's product
    contracts one index; the bias row is broadcast down the rows. -/
theorem dense1_apply (a n : (⟨Cert.ReferenceIdeal.S1000000x1, .f32⟩ : BufTy).Contents (Elt Ideal))
    (W b2 : (⟨Cert.ReferenceIdeal.S1x3, .f32⟩ : BufTy).Contents (Elt Ideal)) (r : Fin 1000000) (q : Fin 3) :
    Cert.Gcn.dense1 (F := Ideal) a n W b2 (ix2 r q)
      = max ((a (ix2 r 0) * n (ix2 r 0)) * W (ix2 0 q) + b2 (ix2 0 q)) 0 := by
  unfold Cert.Gcn.dense1
  rw [maximumf_apply, addf_apply]
  rw [plain_h1.dotGeneral, Fin.sum_univ_one, mulf_apply]
  rw [broadcastInDim_apply ![0, 1] Cert.ReferenceIdeal.Facts₀.bcast_S1x3_S1000000x3_0_1 b2 (ix2 r q) (ix2 0 q) (fun a => by match a with | ⟨0, _⟩ => rfl | ⟨1, _⟩ => rfl)]
  show max _ (Ideal.ofBits .f32 0x00000000#32) = _
  rw [Ideal.ofBits_zero_f32]

/-- The payload at any entry of the block, through the entry's two coordinates. -/
theorem postmul1_payload_at (x0 x1 : FVec Ideal S2000x1 .f32) (w b : FVec Ideal S1x3 .f32) (j : S2000x3.Idx) :
    k1_pay1 (F := Ideal) x0 x1 w b j
      = max ((x0 (ix2 (j 0) 0) * x1 (ix2 (j 0) 0)) * w (ix2 0 (j 1)) + b (ix2 0 (j 1))) 0 :=
  (congrArg (k1_pay1 (F := Ideal) x0 x1 w b) (eq_ix2 j)).trans (postmul1_payload x0 x1 w b (j 0) (j 1))

/-- The reference's dense step at any entry of the array, through the entry's two coordinates. -/
theorem dense1_at (a n : (⟨Cert.ReferenceIdeal.S1000000x1, .f32⟩ : BufTy).Contents (Elt Ideal))
    (W b2 : (⟨Cert.ReferenceIdeal.S1x3, .f32⟩ : BufTy).Contents (Elt Ideal)) (i : Cert.ReferenceIdeal.S1000000x3.Idx) :
    Cert.Gcn.dense1 (F := Ideal) a n W b2 i
      = max ((a (ix2 (i 0) 0) * n (ix2 (i 0) 0)) * W (ix2 0 (i 1)) + b2 (ix2 0 (i 1))) 0 :=
  (congrArg (Cert.Gcn.dense1 (F := Ideal) a n W b2) (eq_ix2 i)).trans (dense1_apply a n W b2 (i 0) (i 1))

variable (V : (c : Dev nD) → (b : Ref sig .tc) → Buf (Elt Ideal) ((c : Thread nD τ).loc b))

/-- The aggregate, the degree weight and the output sit at block `(t, 0)` at point `t`; the weight row and the bias
    row are whole arrays, at block `(0, 0)` at every point. -/
theorem postmul1_blocks : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the reference's dense step of the whole arrays: row `p` of the block is
    row `2000·t + p` of the aggregate, of the degree weight and of the output, and the weight row and the bias row are
    read whole. -/
theorem postmul1_flushed (c : Dev nD) (t : Fin cfg1.N) :
    (dat1 (F := Ideal) V c).flushed 4 t = ((cfg1.win 4).blk t).view.read (Elt Ideal)
      (Cert.Gcn.dense1 (F := Ideal) (V c main_v12) (V c main_v7) (V c main_arg1) (V c main_v13)) := by
  show (cfg1.win 4).cut (grid1.coords t) ((dat1 V c).after 4 t) = _
  rw [after1_4]
  unfold out1_4
  rw [View.canon_unit_zero zero_offsets]
  simp only [View.ld_unit_zero (S := S2000x1) zero_offsets, View.ld_unit_zero (S := S1x3) zero_offsets]
  obtain ⟨e00, e01, e10, e11, e20, e21, e30, e31, e40, e41⟩ := postmul1_blocks t
  funext j
  revert j
  show ∀ j : S2000x3.Idx, k1_pay1 (F := Ideal) (iblk1 V c 0 t) (iblk1 V c 1 t) (iblk1 V c 2 t) (iblk1 V c 3 t) j
    = Cert.Gcn.dense1 (F := Ideal) (V c main_v12) (V c main_v7) (V c main_arg1) (V c main_v13) (((cfg1.win 4).blk t).view.emb j)
  intro j
  rw [postmul1_payload_at, dense1_at]
  have h0 : ((cfg1.win 0).blk t).view.emb (ix2 (j 0) 0 : S2000x1.Idx)
      = (ix2 ((((cfg1.win 4).blk t).view.emb j) 0) 0 : S1000000x1.Idx) := by
    funext a; apply Fin.ext
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 1 + 1 * 0 = 0; omega
  have h1 : ((cfg1.win 1).blk t).view.emb (ix2 (j 0) 0 : S2000x1.Idx)
      = (ix2 ((((cfg1.win 4).blk t).view.emb j) 0) 0 : S1000000x1.Idx) := by
    funext a; apply Fin.ext
    match a with
    | ⟨0, _⟩ => show win1_1.index t (0 : Fin 2) * 2000 + 1 * (j 0).val = win1_4.index t (0 : Fin 2) * 2000 + 1 * (j 0).val; omega
    | ⟨1, _⟩ => show win1_1.index t (1 : Fin 2) * 1 + 1 * 0 = 0; omega
  have h2 : ((cfg1.win 2).blk t).view.emb (ix2 0 (j 1) : S1x3.Idx)
      = (ix2 0 ((((cfg1.win 4).blk t).view.emb j) 1) : S1x3.Idx) := by
    funext a; apply Fin.ext
    match a with
    | ⟨0, _⟩ => show win1_2.index t (0 : Fin 2) * 1 + 1 * 0 = 0; omega
    | ⟨1, _⟩ => show win1_2.index t (1 : Fin 2) * 3 + 1 * (j 1).val = win1_4.index t (1 : Fin 2) * 3 + 1 * (j 1).val; omega
  have h3 : ((cfg1.win 3).blk t).view.emb (ix2 0 (j 1) : S1x3.Idx)
      = (ix2 0 ((((cfg1.win 4).blk t).view.emb j) 1) : S1x3.Idx) := by
    funext a; apply Fin.ext
    match a with
    | ⟨0, _⟩ => show win1_3.index t (0 : Fin 2) * 1 + 1 * 0 = 0; omega
    | ⟨1, _⟩ => show win1_3.index t (1 : Fin 2) * 3 + 1 * (j 1).val = win1_4.index t (1 : Fin 2) * 3 + 1 * (j 1).val; omega
  have g0 : iblk1 V c 0 t (ix2 (j 0) 0 : S2000x1.Idx)
      = V c main_v12 (ix2 ((((cfg1.win 4).blk t).view.emb j) 0) 0 : S1000000x1.Idx) := congrArg (V c main_v12) h0
  have g1 : iblk1 V c 1 t (ix2 (j 0) 0 : S2000x1.Idx)
      = V c main_v7 (ix2 ((((cfg1.win 4).blk t).view.emb j) 0) 0 : S1000000x1.Idx) := congrArg (V c main_v7) h1
  have g2 : iblk1 V c 2 t (ix2 0 (j 1) : S1x3.Idx)
      = V c main_arg1 (ix2 0 ((((cfg1.win 4).blk t).view.emb j) 1) : S1x3.Idx) := congrArg (V c main_arg1) h2
  have g3 : iblk1 V c 3 t (ix2 0 (j 1) : S1x3.Idx)
      = V c main_v13 (ix2 0 ((((cfg1.win 4).blk t).view.emb j) 1) : S1x3.Idx) := congrArg (V c main_v13) h3
  rw [g0, g1, g2, g3]

/-- Row `r` lies in block `r / 2000`: the 500 blocks cover the output array. -/
theorem postmul1_cover (c : Dev nD) (i : S1000000x3.Idx) :
    ∃ t : Fin cfg1.N, (cfg1.win 4).flush t = true ∧ i ∈ ((cfg1.win 4).blk t).view.set := by
  have hN : cfg1.N = 500 := N_1
  have hi0 : (i 0).val < 1000000 := (i 0).isLt
  have hi1 : (i 1).val < 3 := (i 1).isLt
  let t : Fin cfg1.N := ⟨(i 0).val / 2000, by rw [hN]; omega⟩
  obtain ⟨_, _, _, _, _, _, _, _, e40, e41⟩ := postmul1_blocks t
  have ht : t.val = (i 0).val / 2000 := rfl
  refine ⟨t, flush1_4 t, ?_⟩
  show i ∈ ((View.whole main_v14).slice (win1_4.rect t)).set
  rw [View.set_slice_whole, Rect.mem_set_unit]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 3 ≤ (i 1).val ∧ (i 1).val < win1_4.index t (1 : Fin 2) * 3 + 3; omega

/-- After the pass the output array is the reference's first dense step of the aggregate, the degree weight, the weight
    row and the bias row as the pass found them. -/
theorem postmul1_final (c : Dev nD) :
    (dat1 (F := Ideal) V c).arrAt 4 cfg1.N
      = Cert.Gcn.dense1 (F := Ideal) (V c main_v12) (V c main_v7) (V c main_arg1) (V c main_v13) :=
  (dat1 (F := Ideal) V c).arrAt_eq_of_cover 4 _ (fun t _ => postmul1_flushed V c t) (postmul1_cover c)

end Cert.KernelIdeal.Blocks

end
-- ==== Proof.Postmul2.lean ====
/-
  The second layer's dense pass. The node axis (1,000,000 rows) is cut into 500 blocks of 2,000 rows; at block `t` the body
  multiplies every feature of the aggregate block `[2000,3]` by the degree weight of its row, multiplies the result by the
  weight column `[3,1]`, adds the bias entry and cuts the result off below at zero, and writes the `[2000,1]` block back to
  rows `2000·t … 2000·t + 1999`. The aggregate, the degree weight and the output move together (block index `(t, 0)`); the
  weight column and the bias entry are whole arrays, the same block `(0, 0)` at every point. Read at a row `r`, both the
  body's value and the reference's dense step are `max (Σ over the three features k of (a r k · n r) · W k, plus b, 0)`, the
  sum in the same order on both sides, so what the blocks leave in the output array, put together, is the reference's dense
  step of the whole arrays.
-/
import proofs.«170145_j62380105008026_2_alg».proof.Proof.Gen.KernelIdeal.Frame
import proofs.«170145_j62380105008026_2_alg».proof.Proof.Spec
import proofs.«170145_j62380105008026_2_alg».proof.Proof.LibDotInnerHost
import proofs.«170145_j62380105008026_2_alg».proof.Proof.Premul1
import Idealize.ShloMosaic.Lib.Pipeline.Value
import Idealize.ShloMosaic.Lib.ValueIdx
import Idealize.ShloMosaic.Lib.ValueIdxCoords

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.DotInner

/-- The body's product is a plain rows-by-columns product contracting one index of extent 3. -/
theorem plain_k3 : Plain dot_S2000x3_S3x1_S2000x1_1_0_0_1_n_n :=
  plain_record dot_S2000x3_S3x1_S2000x1_1_0_0_1_n_n, S2000x3, S3x1

/-- So is the reference's, over the whole arrays. -/
theorem plain_h3 : Plain Cert.ReferenceIdeal.dot_S1000000x3_S3x1_S1000000x1_1_0_0_1_n_n :=
  plain_record Cert.ReferenceIdeal.dot_S1000000x3_S3x1_S1000000x1_1_0_0_1_n_n, Cert.ReferenceIdeal.S1000000x3, Cert.ReferenceIdeal.S3x1

/-- The body's stored value at row `p` (and the one column `q`): the sum over the three features `k` of the feature
    times the degree weight of row `p` times the weight of feature `k`, plus the bias, cut off below at zero. The
    narrowing of the matrix unit's operands is the identity on the extended reals. -/
theorem postmul2_payload (x0 : FVec Ideal S2000x3 .f32) (x1 : FVec Ideal S2000x1 .f32) (w : FVec Ideal S3x1 .f32)
    (b : FVec Ideal S1x1 .f32) (p : Fin 2000) (q : Fin 1) :
    k3_pay1 (F := Ideal) x0 x1 w b (ix2 p q)
      = max ((∑ k : Fin 3, (x0 (ix2 p k) * x1 (ix2 p 0)) * w (ix2 k q)) + b (ix2 0 0)) 0 := by
  unfold k3_pay1
  simp only [shapeCast_self]
  rw [maximumf_apply, addf_apply, broadcast_apply]
  rw [show matmul dot_S2000x3_S3x1_S2000x1_1_0_0_1_n_n none (truncf .bf16 (mulf x0 (broadcastTo S2000x3 x1 broadcasts_S2000x1_S2000x3)) bitsLt_bf16_f32) (truncf .bf16 w bitsLt_bf16_f32) (constant S2000x1 .f32 0x00000000#32) (ix2 p q) = _ from plain_k3.matmul_zero _ _ _ p q]
  rw [Finset.sum_congr rfl fun k _ => show
      (truncf .bf16 (mulf x0 (broadcastTo S2000x3 x1 broadcasts_S2000x1_S2000x3)) bitsLt_bf16_f32 : FVec Ideal S2000x3 .bf16) (ix2 p k)
        * (truncf .bf16 w bitsLt_bf16_f32 : FVec Ideal S3x1 .bf16) (ix2 k q)
      = (x0 (ix2 p k) * x1 (ix2 p 0)) * w (ix2 k q) by
    rw [truncf_apply, truncf_apply, mulf_apply,
      broadcastTo_apply x1 broadcasts_S2000x1_S2000x3 (ix2 p k) (ix2 p 0) (fun a => by match a with | ⟨0, _⟩ => rfl | ⟨1, _⟩ => rfl)]]
  rw [broadcastTo_apply b broadcasts_S1x1_S2000x1 (ix2 p q) (ix2 0 0) (fun a => by match a with | ⟨0, _⟩ => rfl | ⟨1, _⟩ => rfl)]
  show max _ (Ideal.ofBits .f32 0x00000000#32) = _
  rw [Ideal.ofBits_zero_f32]

/-- The reference's dense step at row `r` (and the one column `q`): the same expression over the whole arrays. The
    degree-weight column is broadcast across the three features before the host's product, which contracts them; the bias
    entry is broadcast down the rows. -/
theorem dense2_apply (a : (⟨Cert.ReferenceIdeal.S1000000x3, .f32⟩ : BufTy).Contents (Elt Ideal))
    (n : (⟨Cert.ReferenceIdeal.S1000000x1, .f32⟩ : BufTy).Contents (Elt Ideal))
    (W : (⟨Cert.ReferenceIdeal.S3x1, .f32⟩ : BufTy).Contents (Elt Ideal))
    (b2 : (⟨Cert.ReferenceIdeal.S1x1, .f32⟩ : BufTy).Contents (Elt Ideal)) (r : Fin 1000000) (q : Fin 1) :
    Cert.Gcn.dense2 (F := Ideal) a n W b2 (ix2 r q)
      = max ((∑ k : Fin 3, (a (ix2 r k) * n (ix2 r 0)) * W (ix2 k q)) + b2 (ix2 0 0)) 0 := by
  unfold Cert.Gcn.dense2
  rw [maximumf_apply, addf_apply]
  rw [plain_h3.dotGeneral]
  rw [Finset.sum_congr rfl fun k _ => show
      Cert.Gcn.scale3 (F := Ideal) a n (ix2 r k) * W (ix2 k q) = (a (ix2 r k) * n (ix2 r 0)) * W (ix2 k q) by
    unfold Cert.Gcn.scale3
    rw [mulf_apply, broadcastInDim_apply ![0, 1] Cert.ReferenceIdeal.Facts₀.bcast_S1000000x1_S1000000x3_0_1 n (ix2 r k) (ix2 r 0)
      (fun a => by match a with | ⟨0, _⟩ => rfl | ⟨1, _⟩ => rfl)]]
  rw [broadcastInDim_apply ![0, 1] Cert.ReferenceIdeal.Facts₀.bcast_S1x1_S1000000x1_0_1 b2 (ix2 r q) (ix2 0 0) (fun a => by match a with | ⟨0, _⟩ => rfl | ⟨1, _⟩ => rfl)]
  show max _ (Ideal.ofBits .f32 0x00000000#32) = _
  rw [Ideal.ofBits_zero_f32]

/-- The payload at any entry of the block, through the entry's two coordinates. -/
theorem postmul2_payload_at (x0 : FVec Ideal S2000x3 .f32) (x1 : FVec Ideal S2000x1 .f32) (w : FVec Ideal S3x1 .f32)
    (b : FVec Ideal S1x1 .f32) (j : S2000x1.Idx) :
    k3_pay1 (F := Ideal) x0 x1 w b j
      = max ((∑ k : Fin 3, (x0 (ix2 (j 0) k) * x1 (ix2 (j 0) 0)) * w (ix2 k (j 1))) + b (ix2 0 0)) 0 :=
  (congrArg (k3_pay1 (F := Ideal) x0 x1 w b) (eq_ix2 j)).trans (postmul2_payload x0 x1 w b (j 0) (j 1))

/-- The reference's dense step at any entry of the array, through the entry's two coordinates. -/
theorem dense2_at (a : (⟨Cert.ReferenceIdeal.S1000000x3, .f32⟩ : BufTy).Contents (Elt Ideal))
    (n : (⟨Cert.ReferenceIdeal.S1000000x1, .f32⟩ : BufTy).Contents (Elt Ideal))
    (W : (⟨Cert.ReferenceIdeal.S3x1, .f32⟩ : BufTy).Contents (Elt Ideal))
    (b2 : (⟨Cert.ReferenceIdeal.S1x1, .f32⟩ : BufTy).Contents (Elt Ideal)) (i : Cert.ReferenceIdeal.S1000000x1.Idx) :
    Cert.Gcn.dense2 (F := Ideal) a n W b2 i
      = max ((∑ k : Fin 3, (a (ix2 (i 0) k) * n (ix2 (i 0) 0)) * W (ix2 k (i 1))) + b2 (ix2 0 0)) 0 :=
  (congrArg (Cert.Gcn.dense2 (F := Ideal) a n W b2) (eq_ix2 i)).trans (dense2_apply a n W b2 (i 0) (i 1))

variable (V : (c : Dev nD) → (b : Ref sig .tc) → Buf (Elt Ideal) ((c : Thread nD τ).loc b))

/-- The aggregate, the degree weight and the output sit at block `(t, 0)` at point `t`; the weight column and the bias
    entry are whole arrays, at block `(0, 0)` at every point. -/
theorem postmul2_blocks : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is block `t` of the reference's dense step of the whole arrays: row `p` of the block is
    row `2000·t + p` of the aggregate, of the degree weight and of the output, and the weight column and the bias entry
    are read whole. -/
theorem postmul2_flushed (c : Dev nD) (t : Fin cfg3.N) :
    (dat3 (F := Ideal) V c).flushed 4 t = ((cfg3.win 4).blk t).view.read (Elt Ideal)
      (Cert.Gcn.dense2 (F := Ideal) (V c main_v19) (V c main_v7) (V c main_arg3) (V c main_v20)) := by
  show (cfg3.win 4).cut (grid3.coords t) ((dat3 V c).after 4 t) = _
  rw [after3_4]
  unfold out3_4
  rw [View.canon_unit_zero zero_offsets]
  simp only [View.ld_unit_zero (S := S2000x3) zero_offsets, View.ld_unit_zero (S := S2000x1) zero_offsets,
    View.ld_unit_zero (S := S3x1) zero_offsets, View.ld_unit_zero (S := S1x1) zero_offsets]
  obtain ⟨e00, e01, e10, e11, e20, e21, e30, e31, e40, e41⟩ := postmul2_blocks t
  funext j
  revert j
  show ∀ j : S2000x1.Idx, k3_pay1 (F := Ideal) (iblk3 V c 0 t) (iblk3 V c 1 t) (iblk3 V c 2 t) (iblk3 V c 3 t) j
    = Cert.Gcn.dense2 (F := Ideal) (V c main_v19) (V c main_v7) (V c main_arg3) (V c main_v20) (((cfg3.win 4).blk t).view.emb j)
  intro j
  rw [postmul2_payload_at, dense2_at]
  have h0 : ∀ k : Fin 3, ((cfg3.win 0).blk t).view.emb (ix2 (j 0) k : S2000x3.Idx)
      = (ix2 ((((cfg3.win 4).blk t).view.emb j) 0) k : S1000000x3.Idx) := fun k => by
    funext a; apply Fin.ext
    match a with
    | ⟨0, _⟩ => show win3_0.index t (0 : Fin 2) * 2000 + 1 * (j 0).val = win3_4.index t (0 : Fin 2) * 2000 + 1 * (j 0).val; omega
    | ⟨1, _⟩ => show win3_0.index t (1 : Fin 2) * 3 + 1 * k.val = k.val; omega
  have h1 : ((cfg3.win 1).blk t).view.emb (ix2 (j 0) 0 : S2000x1.Idx)
      = (ix2 ((((cfg3.win 4).blk t).view.emb j) 0) 0 : S1000000x1.Idx) := by
    funext a; apply Fin.ext
    match a with
    | ⟨0, _⟩ => show win3_1.index t (0 : Fin 2) * 2000 + 1 * (j 0).val = win3_4.index t (0 : Fin 2) * 2000 + 1 * (j 0).val; omega
    | ⟨1, _⟩ => show win3_1.index t (1 : Fin 2) * 1 + 1 * 0 = 0; omega
  have h2 : ∀ k : Fin 3, ((cfg3.win 2).blk t).view.emb (ix2 k (j 1) : S3x1.Idx)
      = (ix2 k ((((cfg3.win 4).blk t).view.emb j) 1) : S3x1.Idx) := fun k => by
    funext a; apply Fin.ext
    match a with
    | ⟨0, _⟩ => show win3_2.index t (0 : Fin 2) * 3 + 1 * k.val = k.val; omega
    | ⟨1, _⟩ => show win3_2.index t (1 : Fin 2) * 1 + 1 * (j 1).val = win3_4.index t (1 : Fin 2) * 1 + 1 * (j 1).val; omega
  have h3 : ((cfg3.win 3).blk t).view.emb (ix2 0 0 : S1x1.Idx) = (ix2 0 0 : S1x1.Idx) := by
    funext a; apply Fin.ext
    match a with
    | ⟨0, _⟩ => show win3_3.index t (0 : Fin 2) * 1 + 1 * 0 = 0; omega
    | ⟨1, _⟩ => show win3_3.index t (1 : Fin 2) * 1 + 1 * 0 = 0; omega
  have g0 : ∀ k : Fin 3, iblk3 V c 0 t (ix2 (j 0) k : S2000x3.Idx)
      = V c main_v19 (ix2 ((((cfg3.win 4).blk t).view.emb j) 0) k : S1000000x3.Idx) := fun k => congrArg (V c main_v19) (h0 k)
  have g1 : iblk3 V c 1 t (ix2 (j 0) 0 : S2000x1.Idx)
      = V c main_v7 (ix2 ((((cfg3.win 4).blk t).view.emb j) 0) 0 : S1000000x1.Idx) := congrArg (V c main_v7) h1
  have g2 : ∀ k : Fin 3, iblk3 V c 2 t (ix2 k (j 1) : S3x1.Idx)
      = V c main_arg3 (ix2 k ((((cfg3.win 4).blk t).view.emb j) 1) : S3x1.Idx) := fun k => congrArg (V c main_arg3) (h2 k)
  have g3 : iblk3 V c 3 t (ix2 0 0 : S1x1.Idx) = V c main_v20 (ix2 0 0 : S1x1.Idx) := congrArg (V c main_v20) h3
  rw [g1, g3]
  simp only [g0, g2]

/-- Row `r` lies in block `r / 2000`: the 500 blocks cover the output array. -/
theorem postmul2_cover (c : Dev nD) (i : S1000000x1.Idx) :
    ∃ t : Fin cfg3.N, (cfg3.win 4).flush t = true ∧ i ∈ ((cfg3.win 4).blk t).view.set := by
  have hN : cfg3.N = 500 := N_3
  have hi0 : (i 0).val < 1000000 := (i 0).isLt
  have hi1 : (i 1).val < 1 := (i 1).isLt
  let t : Fin cfg3.N := ⟨(i 0).val / 2000, by rw [hN]; omega⟩
  obtain ⟨_, _, _, _, _, _, _, _, e40, e41⟩ := postmul2_blocks t
  have ht : t.val = (i 0).val / 2000 := rfl
  refine ⟨t, flush3_4 t, ?_⟩
  show i ∈ ((View.whole main_v21).slice (win3_4.rect t)).set
  rw [View.set_slice_whole, Rect.mem_set_unit]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 1 ≤ (i 1).val ∧ (i 1).val < win3_4.index t (1 : Fin 2) * 1 + 1; omega

/-- After the pass the output array is the reference's second dense step of the aggregate, the degree weight, the weight
    column and the bias entry as the pass found them. -/
theorem postmul2_final (c : Dev nD) :
    (dat3 (F := Ideal) V c).arrAt 4 cfg3.N
      = Cert.Gcn.dense2 (F := Ideal) (V c main_v19) (V c main_v7) (V c main_arg3) (V c main_v20) :=
  (dat3 (F := Ideal) V c).arrAt_eq_of_cover 4 _ (fun t _ => postmul2_flushed V c t) (postmul2_cover c)

end Cert.KernelIdeal.Blocks

end
-- ==== Proof.RefRun.lean ====
/-
  The reference program's run: its `@main` is a straight line of host operations once the functions it calls
  (`_take`, which itself calls `_where`; `relu`) are unfolded at their call sites, and the fold of that line at the
  result buffer is the two-layer network of `Spec` applied to the seven arguments' launch contents.
-/
import proofs.«170145_j62380105008026_2_alg».proof.Proof.Spec
import proofs.«170145_j62380105008026_2_alg».proof.Proof.LibTypedRefs
import Idealize.ShloMosaic.Lib.StableHlo.Run

noncomputable section

namespace Cert.ReferenceIdeal.Hand

open Cert.ReferenceIdeal Cert.ReferenceIdeal.Gen Idealize.ShloMosaic Idealize.ShloMosaic.StableHlo Idealize.SL.Sem Idealize.ShloMosaic.TcCoe

variable {F : FTy → Type} [FloatOps F]

/-! ## @main's operations, the calls unfolded, in nine stages -/

/-- The degree weights: the edge count per destination node, at least one, its reciprocal square root, as a column. -/
abbrev s1 : List (HloOp τ sig (Elt F)) :=
  [
    nullary main_cst (constant S_ .f32 0x3F800000#32),
    unary main_cst main_v0 (broadcastInDim S16000000 ![] bcast_S_S16000000 : (⟨S_, .f32⟩ : BufTy).Contents (Elt F) → (⟨S16000000, .f32⟩ : BufTy).Contents (Elt F)),
    nullary main_cst_0 (constant S_ .f32 0x00000000#32),
    unary main_cst_0 main_v1 (broadcastInDim S1000000 ![] bcast_S_S1000000 : (⟨S_, .f32⟩ : BufTy).Contents (Elt F) → (⟨S1000000, .f32⟩ : BufTy).Contents (Elt F)),
    unary main_arg6 main_v2 (broadcastInDim S16000000x1 ![0] bcast_S16000000_S16000000x1_0 : (⟨S16000000, .i32⟩ : BufTy).Contents (Elt F) → (⟨S16000000x1, .i32⟩ : BufTy).Contents (Elt F)),
    ternary main_v1 main_v2 main_v0 main_v3 ((fun x i u => Host.scatterAdd scatter_S1000000_S16000000x1_S16000000_n_0_0_1 x i u) : (⟨S1000000, .f32⟩ : BufTy).Contents (Elt F) → (⟨S16000000x1, .i32⟩ : BufTy).Contents (Elt F) → (⟨S16000000, .f32⟩ : BufTy).Contents (Elt F) → (⟨S1000000, .f32⟩ : BufTy).Contents (Elt F)),
    nullary main_cst_1 (constant S_ .f32 0x3F800000#32),
    unary main_cst_1 main_v4 (broadcastInDim S1000000 ![] bcast_S_S1000000 : (⟨S_, .f32⟩ : BufTy).Contents (Elt F) → (⟨S1000000, .f32⟩ : BufTy).Contents (Elt F)),
    binary main_v3 main_v4 main_v5 (maximumf : (⟨S1000000, .f32⟩ : BufTy).Contents (Elt F) → (⟨S1000000, .f32⟩ : BufTy).Contents (Elt F) → (⟨S1000000, .f32⟩ : BufTy).Contents (Elt F)),
    unary main_v5 main_v6 (Host.rsqrt : (⟨S1000000, .f32⟩ : BufTy).Contents (Elt F) → (⟨S1000000, .f32⟩ : BufTy).Contents (Elt F)),
    unary main_v6 main_v7 (broadcastInDim S1000000x1 ![0] bcast_S1000000_S1000000x1_0 : (⟨S1000000, .f32⟩ : BufTy).Contents (Elt F) → (⟨S1000000x1, .f32⟩ : BufTy).Contents (Elt F)) ]

/-- The features times the degree weights. -/
abbrev s2 : List (HloOp τ sig (Elt F)) :=
  [
    binary main_arg0 main_v7 main_v8 (mulf : (⟨S1000000x1, .f32⟩ : BufTy).Contents (Elt F) → (⟨S1000000x1, .f32⟩ : BufTy).Contents (Elt F) → (⟨S1000000x1, .f32⟩ : BufTy).Contents (Elt F)) ]

/-- `take` of the one-column table at the edge sources. -/
abbrev s3 : List (HloOp τ sig (Elt F)) :=
  [
    TRef.nullary main_call0.c (constantI S_ 32 0#32),
    TRef.unary main_call0.c main_call0.v0 (broadcastInDim S16000000 ![] bcast_S_S16000000),
    TRef.binary (.of main_arg5) main_call0.v0 main_call0.v1 (cmpi .slt),
    TRef.nullary main_call0.c_0 (constantI S_ 32 1000000#32),
    TRef.unary main_call0.c_0 main_call0.v2 (broadcastInDim S16000000 ![] bcast_S_S16000000),
    TRef.binary (.of main_arg5) main_call0.v2 main_call0.v3 addi,
    TRef.ternary main_call0.v1 main_call0.v3 (.of main_arg5) main_call0.call0.v0 select,
    TRef.unary main_call0.call0.v0 main_call0.v5 (broadcastInDim S16000000x1 ![0] bcast_S16000000_S16000000x1_0),
    TRef.nullary main_call0.c_1 (constantI S1 32 999999#32),
    TRef.nullary main_call0.c_2 (constantI S_ 32 0#32),
    TRef.unary main_call0.c_2 main_call0.v6 (broadcastInDim S16000000x1 ![] bcast_S_S16000000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16000000x1 ![0, 1] bcast_S1x1_S16000000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16000000x1_S16000000_d1 h_S_),
    TRef.binary (.of main_v8) main_call0.v5 main_call0.v13 (fun x i => Host.gather gather_S1000000x1_S16000000x1_S16000000x1_1_0_n_n_0_1_11 x i),
    TRef.unary main_call0.v12 main_call0.v14 (broadcastInDim S16000000x1 ![0] bcast_S16000000_S16000000x1_0),
    TRef.nullary main_call0.cst (constant S_ .f32 0x7FC00000#32),
    TRef.unary main_call0.cst main_call0.v15 (broadcastInDim S16000000x1 ![] bcast_S_S16000000x1),
    TRef.ternary main_call0.v14 main_call0.v13 main_call0.v15 main_call0.v16 select ]

/-- The per-edge rows summed into their destination nodes. -/
abbrev s4 : List (HloOp τ sig (Elt F)) :=
  [
    nullary main_cst_2 (constant S_ .f32 0x00000000#32),
    unary main_cst_2 main_v10 (broadcastInDim S1000000x1 ![] bcast_S_S1000000x1 : (⟨S_, .f32⟩ : BufTy).Contents (Elt F) → (⟨S1000000x1, .f32⟩ : BufTy).Contents (Elt F)),
    unary main_arg6 main_v11 (broadcastInDim S16000000x1 ![0] bcast_S16000000_S16000000x1_0 : (⟨S16000000, .i32⟩ : BufTy).Contents (Elt F) → (⟨S16000000x1, .i32⟩ : BufTy).Contents (Elt F)),
    ternary main_v10 main_v11 main_v9 main_v12 ((fun x i u => Host.scatterAdd scatter_S1000000x1_S16000000x1_S16000000x1_1_0_0_1 x i u) : (⟨S1000000x1, .f32⟩ : BufTy).Contents (Elt F) → (⟨S16000000x1, .i32⟩ : BufTy).Contents (Elt F) → (⟨S16000000x1, .f32⟩ : BufTy).Contents (Elt F) → (⟨S1000000x1, .f32⟩ : BufTy).Contents (Elt F)) ]

/-- The first layer's dense step. -/
abbrev s5 : List (HloOp τ sig (Elt F)) :=
  [
    binary main_v12 main_v7 main_v13 (mulf : (⟨S1000000x1, .f32⟩ : BufTy).Contents (Elt F) → (⟨S1000000x1, .f32⟩ : BufTy).Contents (Elt F) → (⟨S1000000x1, .f32⟩ : BufTy).Contents (Elt F)),
    binary main_v13 main_arg1 main_v14 ((fun l r => Host.dotGeneral dot_S1000000x1_S1x3_S1000000x3_1_0_0_1_n_n none l r) : (⟨S1000000x1, .f32⟩ : BufTy).Contents (Elt F) → (⟨S1x3, .f32⟩ : BufTy).Contents (Elt F) → (⟨S1000000x3, .f32⟩ : BufTy).Contents (Elt F)),
    unary main_arg2 main_v15 (broadcastInDim S1x3 ![1] bcast_S3_S1x3_1 : (⟨S3, .f32⟩ : BufTy).Contents (Elt F) → (⟨S1x3, .f32⟩ : BufTy).Contents (Elt F)),
    unary main_v15 main_v16 (broadcastInDim S1000000x3 ![0, 1] bcast_S1x3_S1000000x3_0_1 : (⟨S1x3, .f32⟩ : BufTy).Contents (Elt F) → (⟨S1000000x3, .f32⟩ : BufTy).Contents (Elt F)),
    binary main_v14 main_v16 main_v17 (addf : (⟨S1000000x3, .f32⟩ : BufTy).Contents (Elt F) → (⟨S1000000x3, .f32⟩ : BufTy).Contents (Elt F) → (⟨S1000000x3, .f32⟩ : BufTy).Contents (Elt F)),
    TRef.nullary main_call1.cst (constant S_ .f32 0x00000000#32),
    TRef.unary main_call1.cst main_call1.v0 (broadcastInDim S1000000x3 ![] bcast_S_S1000000x3),
    TRef.binary (.of main_v17) main_call1.v0 main_call1.v1 maximumf ]

/-- The second layer's pre-normalisation. -/
abbrev s6 : List (HloOp τ sig (Elt F)) :=
  [
    unary main_v7 main_v19 (broadcastInDim S1000000x3 ![0, 1] bcast_S1000000x1_S1000000x3_0_1 : (⟨S1000000x1, .f32⟩ : BufTy).Contents (Elt F) → (⟨S1000000x3, .f32⟩ : BufTy).Contents (Elt F)),
    binary main_v18 main_v19 main_v20 (mulf : (⟨S1000000x3, .f32⟩ : BufTy).Contents (Elt F) → (⟨S1000000x3, .f32⟩ : BufTy).Contents (Elt F) → (⟨S1000000x3, .f32⟩ : BufTy).Contents (Elt F)) ]

/-- `take` of the three-column table at the edge sources. -/
abbrev s7 : List (HloOp τ sig (Elt F)) :=
  [
    TRef.nullary main_call2.c (constantI S_ 32 0#32),
    TRef.unary main_call2.c main_call2.v0 (broadcastInDim S16000000 ![] bcast_S_S16000000),
    TRef.binary (.of main_arg5) main_call2.v0 main_call2.v1 (cmpi .slt),
    TRef.nullary main_call2.c_0 (constantI S_ 32 1000000#32),
    TRef.unary main_call2.c_0 main_call2.v2 (broadcastInDim S16000000 ![] bcast_S_S16000000),
    TRef.binary (.of main_arg5) main_call2.v2 main_call2.v3 addi,
    TRef.ternary main_call2.v1 main_call2.v3 (.of main_arg5) main_call2.call0.v0 select,
    TRef.unary main_call2.call0.v0 main_call2.v5 (broadcastInDim S16000000x1 ![0] bcast_S16000000_S16000000x1_0),
    TRef.nullary main_call2.c_1 (constantI S1 32 999999#32),
    TRef.nullary main_call2.c_2 (constantI S_ 32 0#32),
    TRef.unary main_call2.c_2 main_call2.v6 (broadcastInDim S16000000x1 ![] bcast_S_S16000000x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S16000000x1 ![0, 1] bcast_S1x1_S16000000x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S16000000x1_S16000000_d1 h_S_),
    TRef.binary (.of main_v20) main_call2.v5 main_call2.v13 (fun x i => Host.gather gather_S1000000x3_S16000000x1_S16000000x3_1_0_n_n_0_1_13 x i),
    TRef.unary main_call2.v12 main_call2.v14 (broadcastInDim S16000000x3 ![0] bcast_S16000000_S16000000x3_0),
    TRef.nullary main_call2.cst (constant S_ .f32 0x7FC00000#32),
    TRef.unary main_call2.cst main_call2.v15 (broadcastInDim S16000000x3 ![] bcast_S_S16000000x3),
    TRef.ternary main_call2.v14 main_call2.v13 main_call2.v15 main_call2.v16 select ]

/-- The per-edge rows summed into their destination nodes, three columns. -/
abbrev s8 : List (HloOp τ sig (Elt F)) :=
  [
    nullary main_cst_3 (constant S_ .f32 0x00000000#32),
    unary main_cst_3 main_v22 (broadcastInDim S1000000x3 ![] bcast_S_S1000000x3 : (⟨S_, .f32⟩ : BufTy).Contents (Elt F) → (⟨S1000000x3, .f32⟩ : BufTy).Contents (Elt F)),
    unary main_arg6 main_v23 (broadcastInDim S16000000x1 ![0] bcast_S16000000_S16000000x1_0 : (⟨S16000000, .i32⟩ : BufTy).Contents (Elt F) → (⟨S16000000x1, .i32⟩ : BufTy).Contents (Elt F)),
    ternary main_v22 main_v23 main_v21 main_v24 ((fun x i u => Host.scatterAdd scatter_S1000000x3_S16000000x1_S16000000x3_1_0_0_1 x i u) : (⟨S1000000x3, .f32⟩ : BufTy).Contents (Elt F) → (⟨S16000000x1, .i32⟩ : BufTy).Contents (Elt F) → (⟨S16000000x3, .f32⟩ : BufTy).Contents (Elt F) → (⟨S1000000x3, .f32⟩ : BufTy).Contents (Elt F)) ]

/-- The second layer's dense step. -/
abbrev s9 : List (HloOp τ sig (Elt F)) :=
  [
    unary main_v7 main_v25 (broadcastInDim S1000000x3 ![0, 1] bcast_S1000000x1_S1000000x3_0_1 : (⟨S1000000x1, .f32⟩ : BufTy).Contents (Elt F) → (⟨S1000000x3, .f32⟩ : BufTy).Contents (Elt F)),
    binary main_v24 main_v25 main_v26 (mulf : (⟨S1000000x3, .f32⟩ : BufTy).Contents (Elt F) → (⟨S1000000x3, .f32⟩ : BufTy).Contents (Elt F) → (⟨S1000000x3, .f32⟩ : BufTy).Contents (Elt F)),
    binary main_v26 main_arg3 main_v27 ((fun l r => Host.dotGeneral dot_S1000000x3_S3x1_S1000000x1_1_0_0_1_n_n none l r) : (⟨S1000000x3, .f32⟩ : BufTy).Contents (Elt F) → (⟨S3x1, .f32⟩ : BufTy).Contents (Elt F) → (⟨S1000000x1, .f32⟩ : BufTy).Contents (Elt F)),
    unary main_arg4 main_v28 (broadcastInDim S1x1 ![1] bcast_S1_S1x1_1 : (⟨S1, .f32⟩ : BufTy).Contents (Elt F) → (⟨S1x1, .f32⟩ : BufTy).Contents (Elt F)),
    unary main_v28 main_v29 (broadcastInDim S1000000x1 ![0, 1] bcast_S1x1_S1000000x1_0_1 : (⟨S1x1, .f32⟩ : BufTy).Contents (Elt F) → (⟨S1000000x1, .f32⟩ : BufTy).Contents (Elt F)),
    binary main_v27 main_v29 main_v30 (addf : (⟨S1000000x1, .f32⟩ : BufTy).Contents (Elt F) → (⟨S1000000x1, .f32⟩ : BufTy).Contents (Elt F) → (⟨S1000000x1, .f32⟩ : BufTy).Contents (Elt F)),
    TRef.nullary main_call3.cst (constant S_ .f32 0x00000000#32),
    TRef.unary main_call3.cst main_call3.v0 (broadcastInDim S1000000x1 ![] bcast_S_S1000000x1),
    TRef.binary (.of main_v30) main_call3.v0 main_call3.v1 maximumf ]

/-- @main's operations in order, the calls unfolded, stage by stage. -/
abbrev ops : List (HloOp τ sig (Elt F)) := s1 ++ s2 ++ s3 ++ s4 ++ s5 ++ s6 ++ s7 ++ s8 ++ s9

set_option maxRecDepth 8192 in
/-- @main is that straight line: the functions' definitions unfolded at their calls, both sides are one chain of
    `hlo` steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} {l₁ l₂ : List α} (h₁ : l₁.Forall p) (h₂ : l₂.Forall p) : (l₁ ++ l₂).Forall p := by
  rw [List.forall_iff_forall_mem] at *
  intro x hx
  rcases List.mem_append.mp hx with h | h
  · exact h₁ x h
  · exact h₂ x h

theorem s1_sub : (s1 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., unary_bufs_sub ..⟩
theorem s1_fresh : (s1 : List (HloOp τ sig (Elt F))).Forall fun op => op.fresh = ∅ :=
  ⟨rfl, rfl, rfl, rfl, rfl, rfl, rfl, rfl, rfl, rfl, rfl⟩
theorem s2_sub : (s2 : List (HloOp τ sig (Elt F))).Forall fun op => op.bufs ⊆ tcRefs τ sig :=
  binary_bufs_sub ..
theorem s2_fresh : (s2 : List (HloOp τ sig (Elt F))).Forall fun op => op.fresh = ∅ :=
  rfl
theorem s3_sub : (s3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem s3_fresh : (s3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem s4_sub : (s4 : List (HloOp τ sig (Elt F))).Forall fun op => op.bufs ⊆ tcRefs τ sig :=
  ⟨nullary_bufs_sub .., unary_bufs_sub .., unary_bufs_sub .., ternary_bufs_sub ..⟩
theorem s4_fresh : (s4 : List (HloOp τ sig (Elt F))).Forall fun op => op.fresh = ∅ :=
  ⟨rfl, rfl, rfl, rfl⟩
theorem s5_sub : (s5 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub ..⟩
theorem s5_fresh : (s5 : List (HloOp τ sig (Elt F))).Forall fun op => op.fresh = ∅ :=
  ⟨rfl, rfl, rfl, rfl, rfl, rfl, rfl, rfl⟩
theorem s6_sub : (s6 : List (HloOp τ sig (Elt F))).Forall fun op => op.bufs ⊆ tcRefs τ sig :=
  ⟨unary_bufs_sub .., binary_bufs_sub ..⟩
theorem s6_fresh : (s6 : List (HloOp τ sig (Elt F))).Forall fun op => op.fresh = ∅ :=
  ⟨rfl, rfl⟩
theorem s7_sub : (s7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem s7_fresh : (s7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem s8_sub : (s8 : List (HloOp τ sig (Elt F))).Forall fun op => op.bufs ⊆ tcRefs τ sig :=
  ⟨nullary_bufs_sub .., unary_bufs_sub .., unary_bufs_sub .., ternary_bufs_sub ..⟩
theorem s8_fresh : (s8 : List (HloOp τ sig (Elt F))).Forall fun op => op.fresh = ∅ :=
  ⟨rfl, rfl, rfl, rfl⟩
theorem s9_sub : (s9 : List (HloOp τ sig (Elt F))).Forall fun op => op.bufs ⊆ tcRefs τ sig :=
  ⟨unary_bufs_sub .., binary_bufs_sub .., binary_bufs_sub .., unary_bufs_sub .., unary_bufs_sub .., binary_bufs_sub .., nullary_bufs_sub .., unary_bufs_sub .., binary_bufs_sub ..⟩
theorem s9_fresh : (s9 : List (HloOp τ sig (Elt F))).Forall fun op => op.fresh = ∅ :=
  ⟨rfl, rfl, rfl, rfl, rfl, rfl, rfl, rfl, rfl⟩

theorem ops_sub : (ops : List (HloOp τ sig (Elt F))).Forall fun op => op.bufs ⊆ tcRefs τ sig :=
  (forall_append (forall_append (forall_append (forall_append (forall_append (forall_append (forall_append (forall_append s1_sub s2_sub) s3_sub) s4_sub) s5_sub) s6_sub) s7_sub) s8_sub) s9_sub)
theorem ops_fresh : (ops : List (HloOp τ sig (Elt F))).Forall fun op => op.fresh = ∅ :=
  (forall_append (forall_append (forall_append (forall_append (forall_append (forall_append (forall_append (forall_append s1_fresh s2_fresh) s3_fresh) s4_fresh) s5_fresh) s6_fresh) s7_fresh) s8_fresh) s9_fresh)

/-- Every weakly fair execution of @main terminates with each buffer at the operations' fold over the launch
    contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

/-! ## The stages' folds

Each stage read over any contents `W` of the buffers before it: its result buffer holds one function of `Spec` of the
buffers it reads, and the arguments and the degree weights pass through it unchanged. -/

/-- The fold of two lines run one after the other is the second's over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

attribute [local irreducible] Host.reduce Host.gather Host.scatterAdd Host.rsqrt in
theorem s1_out (W : Valuation τ sig (Elt F)) :
    after s1 W (main_v7 : DevRef τ sig) = Cert.Gcn.degWeight (W (main_arg6 : DevRef τ sig)) := by
  after_results_simp
  rfl
theorem s1_arg0 (W : Valuation τ sig (Elt F)) : after s1 W (main_arg0 : DevRef τ sig) = W (main_arg0 : DevRef τ sig) := by after_results_simp
theorem s1_arg1 (W : Valuation τ sig (Elt F)) : after s1 W (main_arg1 : DevRef τ sig) = W (main_arg1 : DevRef τ sig) := by after_results_simp
theorem s1_arg2 (W : Valuation τ sig (Elt F)) : after s1 W (main_arg2 : DevRef τ sig) = W (main_arg2 : DevRef τ sig) := by after_results_simp
theorem s1_arg3 (W : Valuation τ sig (Elt F)) : after s1 W (main_arg3 : DevRef τ sig) = W (main_arg3 : DevRef τ sig) := by after_results_simp
theorem s1_arg4 (W : Valuation τ sig (Elt F)) : after s1 W (main_arg4 : DevRef τ sig) = W (main_arg4 : DevRef τ sig) := by after_results_simp
theorem s1_arg5 (W : Valuation τ sig (Elt F)) : after s1 W (main_arg5 : DevRef τ sig) = W (main_arg5 : DevRef τ sig) := by after_results_simp
theorem s1_arg6 (W : Valuation τ sig (Elt F)) : after s1 W (main_arg6 : DevRef τ sig) = W (main_arg6 : DevRef τ sig) := by after_results_simp

attribute [local irreducible] Host.reduce Host.gather Host.scatterAdd Host.rsqrt in
theorem s2_out (W : Valuation τ sig (Elt F)) :
    after s2 W (main_v8 : DevRef τ sig) = mulf (W (main_arg0 : DevRef τ sig)) (W (main_v7 : DevRef τ sig)) := by
  after_results_simp
theorem s2_arg0 (W : Valuation τ sig (Elt F)) : after s2 W (main_arg0 : DevRef τ sig) = W (main_arg0 : DevRef τ sig) := by after_results_simp
theorem s2_arg1 (W : Valuation τ sig (Elt F)) : after s2 W (main_arg1 : DevRef τ sig) = W (main_arg1 : DevRef τ sig) := by after_results_simp
theorem s2_arg2 (W : Valuation τ sig (Elt F)) : after s2 W (main_arg2 : DevRef τ sig) = W (main_arg2 : DevRef τ sig) := by after_results_simp
theorem s2_arg3 (W : Valuation τ sig (Elt F)) : after s2 W (main_arg3 : DevRef τ sig) = W (main_arg3 : DevRef τ sig) := by after_results_simp
theorem s2_arg4 (W : Valuation τ sig (Elt F)) : after s2 W (main_arg4 : DevRef τ sig) = W (main_arg4 : DevRef τ sig) := by after_results_simp
theorem s2_arg5 (W : Valuation τ sig (Elt F)) : after s2 W (main_arg5 : DevRef τ sig) = W (main_arg5 : DevRef τ sig) := by after_results_simp
theorem s2_arg6 (W : Valuation τ sig (Elt F)) : after s2 W (main_arg6 : DevRef τ sig) = W (main_arg6 : DevRef τ sig) := by after_results_simp
theorem s2_v7 (W : Valuation τ sig (Elt F)) : after s2 W (main_v7 : DevRef τ sig) = W (main_v7 : DevRef τ sig) := by after_results_simp

attribute [local irreducible] Host.reduce Host.gather Host.scatterAdd Host.rsqrt in
theorem s3_out (W : Valuation τ sig (Elt F)) :
    after s3 W (main_v9 : DevRef τ sig) = Cert.Gcn.takeRows1 (W (main_v8 : DevRef τ sig)) (W (main_arg5 : DevRef τ sig)) := by
  after_results_simp
  simp only [TRef.ofBuf_toBuf]
  rfl
theorem s3_arg0 (W : Valuation τ sig (Elt F)) : after s3 W (main_arg0 : DevRef τ sig) = W (main_arg0 : DevRef τ sig) := by after_results_simp
theorem s3_arg1 (W : Valuation τ sig (Elt F)) : after s3 W (main_arg1 : DevRef τ sig) = W (main_arg1 : DevRef τ sig) := by after_results_simp
theorem s3_arg2 (W : Valuation τ sig (Elt F)) : after s3 W (main_arg2 : DevRef τ sig) = W (main_arg2 : DevRef τ sig) := by after_results_simp
theorem s3_arg3 (W : Valuation τ sig (Elt F)) : after s3 W (main_arg3 : DevRef τ sig) = W (main_arg3 : DevRef τ sig) := by after_results_simp
theorem s3_arg4 (W : Valuation τ sig (Elt F)) : after s3 W (main_arg4 : DevRef τ sig) = W (main_arg4 : DevRef τ sig) := by after_results_simp
theorem s3_arg5 (W : Valuation τ sig (Elt F)) : after s3 W (main_arg5 : DevRef τ sig) = W (main_arg5 : DevRef τ sig) := by after_results_simp
theorem s3_arg6 (W : Valuation τ sig (Elt F)) : after s3 W (main_arg6 : DevRef τ sig) = W (main_arg6 : DevRef τ sig) := by after_results_simp
theorem s3_v7 (W : Valuation τ sig (Elt F)) : after s3 W (main_v7 : DevRef τ sig) = W (main_v7 : DevRef τ sig) := by after_results_simp

attribute [local irreducible] Host.reduce Host.gather Host.scatterAdd Host.rsqrt in
theorem s4_out (W : Valuation τ sig (Elt F)) :
    after s4 W (main_v12 : DevRef τ sig) = Cert.Gcn.segSum1 (W (main_v9 : DevRef τ sig)) (W (main_arg6 : DevRef τ sig)) := by
  after_results_simp
  rfl
theorem s4_arg0 (W : Valuation τ sig (Elt F)) : after s4 W (main_arg0 : DevRef τ sig) = W (main_arg0 : DevRef τ sig) := by after_results_simp
theorem s4_arg1 (W : Valuation τ sig (Elt F)) : after s4 W (main_arg1 : DevRef τ sig) = W (main_arg1 : DevRef τ sig) := by after_results_simp
theorem s4_arg2 (W : Valuation τ sig (Elt F)) : after s4 W (main_arg2 : DevRef τ sig) = W (main_arg2 : DevRef τ sig) := by after_results_simp
theorem s4_arg3 (W : Valuation τ sig (Elt F)) : after s4 W (main_arg3 : DevRef τ sig) = W (main_arg3 : DevRef τ sig) := by after_results_simp
theorem s4_arg4 (W : Valuation τ sig (Elt F)) : after s4 W (main_arg4 : DevRef τ sig) = W (main_arg4 : DevRef τ sig) := by after_results_simp
theorem s4_arg5 (W : Valuation τ sig (Elt F)) : after s4 W (main_arg5 : DevRef τ sig) = W (main_arg5 : DevRef τ sig) := by after_results_simp
theorem s4_arg6 (W : Valuation τ sig (Elt F)) : after s4 W (main_arg6 : DevRef τ sig) = W (main_arg6 : DevRef τ sig) := by after_results_simp
theorem s4_v7 (W : Valuation τ sig (Elt F)) : after s4 W (main_v7 : DevRef τ sig) = W (main_v7 : DevRef τ sig) := by after_results_simp

attribute [local irreducible] Host.reduce Host.gather Host.scatterAdd Host.rsqrt in
theorem s5_out (W : Valuation τ sig (Elt F)) :
    after s5 W (main_v18 : DevRef τ sig) = Cert.Gcn.dense1 (W (main_v12 : DevRef τ sig)) (W (main_v7 : DevRef τ sig)) (W (main_arg1 : DevRef τ sig)) (Cert.Gcn.biasRow3 (W (main_arg2 : DevRef τ sig))) := by
  after_results_simp
  simp only [TRef.ofBuf_toBuf]
  rfl
theorem s5_arg0 (W : Valuation τ sig (Elt F)) : after s5 W (main_arg0 : DevRef τ sig) = W (main_arg0 : DevRef τ sig) := by after_results_simp
theorem s5_arg1 (W : Valuation τ sig (Elt F)) : after s5 W (main_arg1 : DevRef τ sig) = W (main_arg1 : DevRef τ sig) := by after_results_simp
theorem s5_arg2 (W : Valuation τ sig (Elt F)) : after s5 W (main_arg2 : DevRef τ sig) = W (main_arg2 : DevRef τ sig) := by after_results_simp
theorem s5_arg3 (W : Valuation τ sig (Elt F)) : after s5 W (main_arg3 : DevRef τ sig) = W (main_arg3 : DevRef τ sig) := by after_results_simp
theorem s5_arg4 (W : Valuation τ sig (Elt F)) : after s5 W (main_arg4 : DevRef τ sig) = W (main_arg4 : DevRef τ sig) := by after_results_simp
theorem s5_arg5 (W : Valuation τ sig (Elt F)) : after s5 W (main_arg5 : DevRef τ sig) = W (main_arg5 : DevRef τ sig) := by after_results_simp
theorem s5_arg6 (W : Valuation τ sig (Elt F)) : after s5 W (main_arg6 : DevRef τ sig) = W (main_arg6 : DevRef τ sig) := by after_results_simp
theorem s5_v7 (W : Valuation τ sig (Elt F)) : after s5 W (main_v7 : DevRef τ sig) = W (main_v7 : DevRef τ sig) := by after_results_simp

attribute [local irreducible] Host.reduce Host.gather Host.scatterAdd Host.rsqrt in
theorem s6_out (W : Valuation τ sig (Elt F)) :
    after s6 W (main_v20 : DevRef τ sig) = Cert.Gcn.scale3 (W (main_v18 : DevRef τ sig)) (W (main_v7 : DevRef τ sig)) := by
  after_results_simp
  rfl
theorem s6_arg0 (W : Valuation τ sig (Elt F)) : after s6 W (main_arg0 : DevRef τ sig) = W (main_arg0 : DevRef τ sig) := by after_results_simp
theorem s6_arg1 (W : Valuation τ sig (Elt F)) : after s6 W (main_arg1 : DevRef τ sig) = W (main_arg1 : DevRef τ sig) := by after_results_simp
theorem s6_arg2 (W : Valuation τ sig (Elt F)) : after s6 W (main_arg2 : DevRef τ sig) = W (main_arg2 : DevRef τ sig) := by after_results_simp
theorem s6_arg3 (W : Valuation τ sig (Elt F)) : after s6 W (main_arg3 : DevRef τ sig) = W (main_arg3 : DevRef τ sig) := by after_results_simp
theorem s6_arg4 (W : Valuation τ sig (Elt F)) : after s6 W (main_arg4 : DevRef τ sig) = W (main_arg4 : DevRef τ sig) := by after_results_simp
theorem s6_arg5 (W : Valuation τ sig (Elt F)) : after s6 W (main_arg5 : DevRef τ sig) = W (main_arg5 : DevRef τ sig) := by after_results_simp
theorem s6_arg6 (W : Valuation τ sig (Elt F)) : after s6 W (main_arg6 : DevRef τ sig) = W (main_arg6 : DevRef τ sig) := by after_results_simp
theorem s6_v7 (W : Valuation τ sig (Elt F)) : after s6 W (main_v7 : DevRef τ sig) = W (main_v7 : DevRef τ sig) := by after_results_simp

attribute [local irreducible] Host.reduce Host.gather Host.scatterAdd Host.rsqrt in
theorem s7_out (W : Valuation τ sig (Elt F)) :
    after s7 W (main_v21 : DevRef τ sig) = Cert.Gcn.takeRows3 (W (main_v20 : DevRef τ sig)) (W (main_arg5 : DevRef τ sig)) := by
  after_results_simp
  simp only [TRef.ofBuf_toBuf]
  rfl
theorem s7_arg0 (W : Valuation τ sig (Elt F)) : after s7 W (main_arg0 : DevRef τ sig) = W (main_arg0 : DevRef τ sig) := by after_results_simp
theorem s7_arg1 (W : Valuation τ sig (Elt F)) : after s7 W (main_arg1 : DevRef τ sig) = W (main_arg1 : DevRef τ sig) := by after_results_simp
theorem s7_arg2 (W : Valuation τ sig (Elt F)) : after s7 W (main_arg2 : DevRef τ sig) = W (main_arg2 : DevRef τ sig) := by after_results_simp
theorem s7_arg3 (W : Valuation τ sig (Elt F)) : after s7 W (main_arg3 : DevRef τ sig) = W (main_arg3 : DevRef τ sig) := by after_results_simp
theorem s7_arg4 (W : Valuation τ sig (Elt F)) : after s7 W (main_arg4 : DevRef τ sig) = W (main_arg4 : DevRef τ sig) := by after_results_simp
theorem s7_arg5 (W : Valuation τ sig (Elt F)) : after s7 W (main_arg5 : DevRef τ sig) = W (main_arg5 : DevRef τ sig) := by after_results_simp
theorem s7_arg6 (W : Valuation τ sig (Elt F)) : after s7 W (main_arg6 : DevRef τ sig) = W (main_arg6 : DevRef τ sig) := by after_results_simp
theorem s7_v7 (W : Valuation τ sig (Elt F)) : after s7 W (main_v7 : DevRef τ sig) = W (main_v7 : DevRef τ sig) := by after_results_simp

attribute [local irreducible] Host.reduce Host.gather Host.scatterAdd Host.rsqrt in
theorem s8_out (W : Valuation τ sig (Elt F)) :
    after s8 W (main_v24 : DevRef τ sig) = Cert.Gcn.segSum3 (W (main_v21 : DevRef τ sig)) (W (main_arg6 : DevRef τ sig)) := by
  after_results_simp
  rfl
theorem s8_arg0 (W : Valuation τ sig (Elt F)) : after s8 W (main_arg0 : DevRef τ sig) = W (main_arg0 : DevRef τ sig) := by after_results_simp
theorem s8_arg1 (W : Valuation τ sig (Elt F)) : after s8 W (main_arg1 : DevRef τ sig) = W (main_arg1 : DevRef τ sig) := by after_results_simp
theorem s8_arg2 (W : Valuation τ sig (Elt F)) : after s8 W (main_arg2 : DevRef τ sig) = W (main_arg2 : DevRef τ sig) := by after_results_simp
theorem s8_arg3 (W : Valuation τ sig (Elt F)) : after s8 W (main_arg3 : DevRef τ sig) = W (main_arg3 : DevRef τ sig) := by after_results_simp
theorem s8_arg4 (W : Valuation τ sig (Elt F)) : after s8 W (main_arg4 : DevRef τ sig) = W (main_arg4 : DevRef τ sig) := by after_results_simp
theorem s8_arg5 (W : Valuation τ sig (Elt F)) : after s8 W (main_arg5 : DevRef τ sig) = W (main_arg5 : DevRef τ sig) := by after_results_simp
theorem s8_arg6 (W : Valuation τ sig (Elt F)) : after s8 W (main_arg6 : DevRef τ sig) = W (main_arg6 : DevRef τ sig) := by after_results_simp
theorem s8_v7 (W : Valuation τ sig (Elt F)) : after s8 W (main_v7 : DevRef τ sig) = W (main_v7 : DevRef τ sig) := by after_results_simp

attribute [local irreducible] Host.reduce Host.gather Host.scatterAdd Host.rsqrt in
theorem s9_out (W : Valuation τ sig (Elt F)) :
    after s9 W (main_v31 : DevRef τ sig) = Cert.Gcn.dense2 (W (main_v24 : DevRef τ sig)) (W (main_v7 : DevRef τ sig)) (W (main_arg3 : DevRef τ sig)) (Cert.Gcn.biasRow1 (W (main_arg4 : DevRef τ sig))) := by
  after_results_simp
  simp only [TRef.ofBuf_toBuf]
  rfl
theorem s9_arg0 (W : Valuation τ sig (Elt F)) : after s9 W (main_arg0 : DevRef τ sig) = W (main_arg0 : DevRef τ sig) := by after_results_simp
theorem s9_arg1 (W : Valuation τ sig (Elt F)) : after s9 W (main_arg1 : DevRef τ sig) = W (main_arg1 : DevRef τ sig) := by after_results_simp
theorem s9_arg2 (W : Valuation τ sig (Elt F)) : after s9 W (main_arg2 : DevRef τ sig) = W (main_arg2 : DevRef τ sig) := by after_results_simp
theorem s9_arg3 (W : Valuation τ sig (Elt F)) : after s9 W (main_arg3 : DevRef τ sig) = W (main_arg3 : DevRef τ sig) := by after_results_simp
theorem s9_arg4 (W : Valuation τ sig (Elt F)) : after s9 W (main_arg4 : DevRef τ sig) = W (main_arg4 : DevRef τ sig) := by after_results_simp
theorem s9_arg5 (W : Valuation τ sig (Elt F)) : after s9 W (main_arg5 : DevRef τ sig) = W (main_arg5 : DevRef τ sig) := by after_results_simp
theorem s9_arg6 (W : Valuation τ sig (Elt F)) : after s9 W (main_arg6 : DevRef τ sig) = W (main_arg6 : DevRef τ sig) := by after_results_simp
theorem s9_v7 (W : Valuation τ sig (Elt F)) : after s9 W (main_v7 : DevRef τ sig) = W (main_v7 : DevRef τ sig) := by after_results_simp

/-! ## The whole fold -/

theorem after_ops (V : Valuation τ sig (Elt F)) :
    after ops V = after s9 (after s8 (after s7 (after s6 (after s5 (after s4 (after s3 (after s2 (after s1 V)))))))) := by
  simp only [ops, after_append]

/-- The result buffer after the whole line holds the network of the seven arguments. -/
theorem out_eq (V : Valuation τ sig (Elt F)) :
    after ops V (main_v31 : DevRef τ sig)
      = Cert.Gcn.network (V (main_arg0 : DevRef τ sig)) (V (main_arg1 : DevRef τ sig))
          (Cert.Gcn.biasRow3 (V (main_arg2 : DevRef τ sig))) (V (main_arg3 : DevRef τ sig))
          (Cert.Gcn.biasRow1 (V (main_arg4 : DevRef τ sig))) (V (main_arg5 : DevRef τ sig))
          (V (main_arg6 : DevRef τ sig)) := by
  rw [after_ops, s9_out, s8_out, s8_v7, s8_arg3, s8_arg4,
    s7_out, s7_v7, s7_arg3, s7_arg4, s7_arg6,
    s6_out, s6_v7, s6_arg3, s6_arg4, s6_arg5, s6_arg6,
    s5_out, s5_v7, s5_arg3, s5_arg4, s5_arg5, s5_arg6,
    s4_out, s4_v7, s4_arg1, s4_arg2, s4_arg3, s4_arg4, s4_arg5, s4_arg6,
    s3_out, s3_v7, s3_arg1, s3_arg2, s3_arg3, s3_arg4, s3_arg5, s3_arg6,
    s2_out, s2_v7, s2_arg1, s2_arg2, s2_arg3, s2_arg4, s2_arg5, s2_arg6,
    s1_out, s1_arg0, s1_arg1, s1_arg2, s1_arg3, s1_arg4, s1_arg5, s1_arg6]
  rfl

theorem arg0_eq (V : Valuation τ sig (Elt F)) : after ops V (main_arg0 : DevRef τ sig) = V (main_arg0 : DevRef τ sig) := by
  rw [after_ops, s9_arg0, s8_arg0, s7_arg0, s6_arg0, s5_arg0, s4_arg0, s3_arg0, s2_arg0, s1_arg0]
theorem arg1_eq (V : Valuation τ sig (Elt F)) : after ops V (main_arg1 : DevRef τ sig) = V (main_arg1 : DevRef τ sig) := by
  rw [after_ops, s9_arg1, s8_arg1, s7_arg1, s6_arg1, s5_arg1, s4_arg1, s3_arg1, s2_arg1, s1_arg1]
theorem arg2_eq (V : Valuation τ sig (Elt F)) : after ops V (main_arg2 : DevRef τ sig) = V (main_arg2 : DevRef τ sig) := by
  rw [after_ops, s9_arg2, s8_arg2, s7_arg2, s6_arg2, s5_arg2, s4_arg2, s3_arg2, s2_arg2, s1_arg2]
theorem arg3_eq (V : Valuation τ sig (Elt F)) : after ops V (main_arg3 : DevRef τ sig) = V (main_arg3 : DevRef τ sig) := by
  rw [after_ops, s9_arg3, s8_arg3, s7_arg3, s6_arg3, s5_arg3, s4_arg3, s3_arg3, s2_arg3, s1_arg3]
theorem arg4_eq (V : Valuation τ sig (Elt F)) : after ops V (main_arg4 : DevRef τ sig) = V (main_arg4 : DevRef τ sig) := by
  rw [after_ops, s9_arg4, s8_arg4, s7_arg4, s6_arg4, s5_arg4, s4_arg4, s3_arg4, s2_arg4, s1_arg4]
theorem arg5_eq (V : Valuation τ sig (Elt F)) : after ops V (main_arg5 : DevRef τ sig) = V (main_arg5 : DevRef τ sig) := by
  rw [after_ops, s9_arg5, s8_arg5, s7_arg5, s6_arg5, s5_arg5, s4_arg5, s3_arg5, s2_arg5, s1_arg5]
theorem arg6_eq (V : Valuation τ sig (Elt F)) : after ops V (main_arg6 : DevRef τ sig) = V (main_arg6 : DevRef τ sig) := by
  rw [after_ops, s9_arg6, s8_arg6, s7_arg6, s6_arg6, s5_arg6, s4_arg6, s3_arg6, s2_arg6, s1_arg6]

/-- On every device, for any float values, from any memory with zero counters: every weakly fair execution of @main
    terminates with the result buffer at the network of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31)
        = Cert.Gcn.network (m ((c.tc : Thread nD τ).loc main_arg0)) (m ((c.tc : Thread nD τ).loc main_arg1))
            (Cert.Gcn.biasRow3 (m ((c.tc : Thread nD τ).loc main_arg2))) (m ((c.tc : Thread nD τ).loc main_arg3))
            (Cert.Gcn.biasRow1 (m ((c.tc : Thread nD τ).loc main_arg4))) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v31).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _)⟩)
    (run_all m ρ)

end Cert.ReferenceIdeal.Hand

end
-- ==== Proof.BiasLayout.lean ====
/-
  A bias vector laid out as a one-row matrix, two ways. The kernel program reshapes `[k]` to `[1, k]`; the reference
  broadcasts `[k]` into `[1, k]` along the new leading axis. Both read, at `(0, q)`, the vector's entry `q`: the
  reshape keeps the row-major position, `0 · k + q = q`, and the broadcast reads the operand at the coordinate its one axis
  is mapped to.
-/
import proofs.«170145_j62380105008026_2_alg».proof.Proof.Spec
import Idealize.ShloMosaic.Lib.Pipeline.Value
import Idealize.ShloMosaic.Lib.ValueIdx

noncomputable section

namespace Cert.Gcn

open Idealize.ShloMosaic Idealize.ShloMosaic.ValueIdx Cert.ReferenceIdeal

variable {F : FTy → Type} [FloatOps F]

/-- `[3] → [1, 3]`: the reshape is the broadcast along a new leading axis. -/
theorem biasRow3_cast (b : (⟨S3, .f32⟩ : BufTy).Contents (Elt F)) (h : S3.ShapeCasts S1x3) :
    shapeCast S1x3 (b : S3.Idx → Elt F .f32) h = biasRow3 b := by
  funext i
  obtain ⟨u, q, rfl⟩ : ∃ (u : Fin 1) (q : Fin 3), i = ix2 u q := ⟨i 0, i 1, eq_ix2 i⟩
  have hu : u.val = 0 := by omega
  unfold biasRow3
  rw [shapeCast_apply (b : S3.Idx → Elt F .f32) h (ix2 u q) (ix1 q)
    (by rw [Shape.rowMajor_val_one, Shape.rowMajor_val_two]; show q.val = u.val * 3 + q.val; omega)]
  exact (broadcastInDim_apply ![1] _ (b : S3.Idx → Elt F .f32) (ix2 u q) (ix1 q)
    (fun a => by match a with | ⟨0, _⟩ => rfl)).symm

/-- `[1] → [1, 1]`: the reshape is the broadcast along a new leading axis. -/
theorem biasRow1_cast (b : (⟨S1, .f32⟩ : BufTy).Contents (Elt F)) (h : S1.ShapeCasts S1x1) :
    shapeCast S1x1 (b : S1.Idx → Elt F .f32) h = biasRow1 b := by
  funext i
  obtain ⟨u, q, rfl⟩ : ∃ (u : Fin 1) (q : Fin 1), i = ix2 u q := ⟨i 0, i 1, eq_ix2 i⟩
  have hu : u.val = 0 := by omega
  have hq : q.val = 0 := by omega
  unfold biasRow1
  rw [shapeCast_apply (b : S1.Idx → Elt F .f32) h (ix2 u q) (ix1 q)
    (by rw [Shape.rowMajor_val_one, Shape.rowMajor_val_two]; show q.val = u.val * 1 + q.val; omega)]
  exact (broadcastInDim_apply ![1] _ (b : S1.Idx → Elt F .f32) (ix2 u q) (ix1 q)
    (fun a => by match a with | ⟨0, _⟩ => show q.val = if (1 : ℕ) = 1 then 0 else _; rw [if_pos rfl]; exact hq)).symm

end Cert.Gcn

end
-- ==== Proof.lean ====
/-
  A two-layer graph convolution over 1,000,000 nodes and 16,000,000 edges, as a kernel program and as plain array code.

  Both programs compute, from the features, two weight matrices, two bias vectors and the edge lists `src`, `dst`,
      n   = rsqrt (max (number of edges into each node) 1)                       (the degree weights)
      h₁  = max ((Σ over edges e into r of (feat · n) (src e)) · n r) W₁ + b₁, 0)
      out = max ((Σ over edges e into r of (h₁ · n) (src e)) · n r) W₂ + b₂, 0).
  The kernel program runs the four node-indexed passes (scale by `n`; scale, multiply by `W`, add `b`, clamp at 0) as
  pipelined kernels over 500 blocks of 2,000 rows and leaves the gathers and the sums over edges to host operations; the
  reference runs every step as a host operation. Read on the extended reals the two are the same composition of the same
  stages: a pass's blocks put together are the stage over whole arrays (the products in the same order, the small matrix
  product the same sum over the contracted index, a change of float format the identity), the host stretches between
  passes are the reference's own operations, and the bias laid out by a reshape is the bias laid out by a broadcast along
  a new leading axis. No law of arithmetic beyond these readings is used, so the finiteness of the inputs is never opened.

  The modules: `Spec` states each stage once; `Premul1`, `Premul3`, `Postmul1`, `Postmul2` read the four passes;
  `KernelRun` names the kernel program's result after its run, `KernelHost` reads its host stretches and `KernelFold`
  composes the nine segments; `RefRun` is the reference's run; `BiasLayout` joins the two layouts of a bias. Below, the
  five claims.
-/
import proofs.«170145_j62380105008026_2_alg».proof.Defs
import proofs.«170145_j62380105008026_2_alg».proof.Proof.Gen.Kernel
import proofs.«170145_j62380105008026_2_alg».proof.Proof.Gen.Kernel.Skeleton
import proofs.«170145_j62380105008026_2_alg».proof.Proof.Gen.Kernel.Launch
import proofs.«170145_j62380105008026_2_alg».proof.Proof.Gen.Kernel.Points
import proofs.«170145_j62380105008026_2_alg».proof.Proof.Gen.Kernel.Frame
import proofs.«170145_j62380105008026_2_alg».proof.Proof.Gen.KernelIdeal
import proofs.«170145_j62380105008026_2_alg».proof.Proof.Gen.KernelIdeal.Skeleton
import proofs.«170145_j62380105008026_2_alg».proof.Proof.Gen.KernelIdeal.Launch
import proofs.«170145_j62380105008026_2_alg».proof.Proof.Gen.KernelIdeal.Points
import proofs.«170145_j62380105008026_2_alg».proof.Proof.Gen.KernelIdeal.Frame
import proofs.«170145_j62380105008026_2_alg».proof.Proof.Gen.ReferenceIdeal
import proofs.«170145_j62380105008026_2_alg».proof.Proof.Gen.Pre_finite_inputs
import proofs.«170145_j62380105008026_2_alg».proof.Proof.KernelFold
import proofs.«170145_j62380105008026_2_alg».proof.Proof.Postmul1
import proofs.«170145_j62380105008026_2_alg».proof.Proof.Postmul2
import proofs.«170145_j62380105008026_2_alg».proof.Proof.RefRun
import proofs.«170145_j62380105008026_2_alg».proof.Proof.BiasLayout
import Idealize.ShloMosaic.Adequacy
import Idealize.ShloMosaic.Init

noncomputable section

namespace Cert.Proof

open Idealize.ShloMosaic Idealize.SL.Sem

/-- The kernel program as printed runs, and leaves its arguments as launched. -/
theorem frame_kernel : Cert.frame_Kernel := fun m ρ _ => Cert.Kernel.Gen.frame m ρ

/-- The kernel program read on the extended reals runs, and leaves its arguments as launched. -/
theorem frame_kernelIdeal : Cert.frame_KernelIdeal := fun m ρ _ => Cert.KernelIdeal.Gen.frame m ρ

/-- The reference runs, and leaves its arguments as launched: its run with the result dropped. -/
theorem frame_reference : Cert.frame_ReferenceIdeal := fun m ρ _ =>
  (θ_run (Cert.ReferenceIdeal.defs (F := Ideal)) _ _).mono (fun _ h c => (h c).2) (Cert.ReferenceIdeal.Hand.run (F := Ideal) m ρ)

/-- Reading the kernel program on the extended reals rewrote none of its operations. -/
theorem preserves : Cert.preserves_Kernel_KernelIdeal := trivial

/-- The kernel program's run on the extended reals: the result buffer ends at the network of the seven arguments, the
    biases laid out as the reference lays them out; the arguments as launched. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v21)
        = Cert.Gcn.network (m ((c.tc : Thread Cert.KernelIdeal.nD Cert.KernelIdeal.τ).loc Cert.KernelIdeal.main_arg0)) (m ((c.tc : Thread Cert.KernelIdeal.nD Cert.KernelIdeal.τ).loc Cert.KernelIdeal.main_arg1))
            (Cert.Gcn.biasRow3 (m ((c.tc : Thread Cert.KernelIdeal.nD Cert.KernelIdeal.τ).loc Cert.KernelIdeal.main_arg2))) (m ((c.tc : Thread Cert.KernelIdeal.nD Cert.KernelIdeal.τ).loc Cert.KernelIdeal.main_arg3))
            (Cert.Gcn.biasRow1 (m ((c.tc : Thread Cert.KernelIdeal.nD Cert.KernelIdeal.τ).loc Cert.KernelIdeal.main_arg4))) (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) := by
  refine (θ_run (Cert.KernelIdeal.defs (F := Ideal)) _ _).mono (fun r h c => ⟨(h c).1.trans ?_, (h c).2⟩)
    (Cert.KernelIdeal.Hand.run_result m ρ)
  rw [Cert.KernelIdeal.Hand.result_value m ρ c (fun V c => Cert.KernelIdeal.Blocks.postmul1_final V c)
    (fun V c => Cert.KernelIdeal.Blocks.postmul2_final V c), Cert.Gcn.biasRow3_cast, Cert.Gcn.biasRow1_cast]

/-- From memories agreeing on the arguments both programs end with the network of those arguments in their result
    buffers: equal results, element by element. -/
theorem algebraic : Cert.algebraic_KernelIdeal_ReferenceIdeal := by
  intro m ρ m' ρ' _ hagree
  refine ⟨_, kernel_run m ρ, ?_⟩
  refine (θ_run (Cert.ReferenceIdeal.defs (F := Ideal)) _ _).mono (fun _ h c => ⟨(h c).1.trans ?_, (h c).2⟩)
    (Cert.ReferenceIdeal.Hand.run (F := Ideal) m' ρ')
  obtain ⟨e0, e1, e2, e3, e4, e5, e6⟩ := hagree c
  rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
